-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S16x2048x1 : Shape := ⟨3, ![16, 2048, 1]⟩
abbrev S128x128 : Shape := ⟨2, ![128, 128]⟩
abbrev S128 : Shape := ⟨1, ![128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x2048x1 : S_.BroadcastsInDim S16x2048x1 (![] : Fin 0 → Fin S16x2048x1.rank)
  reducesTo_S16x2048x1_S_d0_1_2 : S16x2048x1.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S128x128 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S16x2048x1 1) : IVec S_ 1 :=
  let main_c_5 : IVec S_ 1 := constantI S_ 1 1#1
  let main_v17 : IVec S_ 1 := (fun x v => Host.reduce IntOp.andi x v reducesTo_S16x2048x1_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16x2048x128 .f32) (main_arg1 : FVec F S16x2048x2048 .f32) (main_arg2 : FVec F S16x2048x1 .f32) (main_arg3 : FVec F S16x2048x1 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S16x2048x1 .f32 := Host.absf main_arg2
  let main_cst_2 : FVec F S_ .f32 := constant S_ .f32 0x7F800000#32
  let main_v10 : FVec F S16x2048x1 .f32 := broadcastInDim S16x2048x1 ![] bcast_S_S16x2048x1 main_cst_2
  let main_v11 : IVec S16x2048x1 1 := cmpf .olt main_v9 main_v10
  let main_c_3 : IVec S_ 1 := constantI S_ 1 1#1
  let main_v12 : IVec S_ 1 := (fun x v => Host.reduce IntOp.andi x v reducesTo_S16x2048x1_S_d0_1_2 h_S_) main_v11 main_c_3
  let main_v13 : IVec S_ 1 := andi main_v8 main_v12
  let main_v14 : FVec F S16x2048x1 .f32 := Host.absf main_arg3
  let main_cst_4 : FVec F S_ .f32 := constant S_ .f32 0x7F800000#32
  let main_v15 : FVec F S16x2048x1 .f32 := broadcastInDim S16x2048x1 ![] bcast_S_S16x2048x1 main_cst_4
  let main_v16 : IVec S16x2048x1 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16x2048x128 : Shape := ⟨3, ![16, 2048, 128]⟩
abbrev S16x2048x2048 : Shape := ⟨3, ![16, 2048, 2048]⟩
abbrev S16x2048x1 : Shape := ⟨3, ![16, 2048, 1]⟩
abbrev S128x128 : Shape := ⟨2, ![128, 128]⟩
abbrev S128 : Shape := ⟨1, ![128]⟩
abbrev S128x256 : Shape := ⟨2, ![128, 256]⟩
abbrev S256 : Shape := ⟨1, ![256]⟩
abbrev S1x2048x128 : Shape := ⟨3, ![1, 2048, 128]⟩
abbrev S1x2048x2048 : Shape := ⟨3, ![1, 2048, 2048]⟩
abbrev S1x2048x1 : Shape := ⟨3, ![1, 2048, 1]⟩
abbrev S2048x128 : Shape := ⟨2, ![2048, 128]⟩
abbrev S1x128 : Shape := ⟨2, ![1, 128]⟩
abbrev S1x256 : Shape := ⟨2, ![1, 256]⟩
abbrev S1x256x2048 : Shape := ⟨3, ![1, 256, 2048]⟩
abbrev S256x2048 : Shape := ⟨2, ![256, 2048]⟩
abbrev S256x128 : Shape := ⟨2, ![256, 128]⟩
abbrev S1x256x1 : Shape := ⟨3, ![1, 256, 1]⟩
abbrev S256x1 : Shape := ⟨2, ![256, 1]⟩
abbrev S256x256 : Shape := ⟨2, ![256, 256]⟩
abbrev S1x256x128 : Shape := ⟨3, ![1, 256, 128]⟩

abbrev nBuf : Space → Nat
  | .hbm => 23
  | .vmem => 20
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S16x2048x1, .f32⟩
  | .hbm, ⟨3, _⟩ => ⟨S16x2048x1, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x256, .f32⟩
  | .hbm, ⟨19, _⟩ => ⟨S128x256, .f32⟩
  | .hbm, ⟨20, _⟩ => ⟨S256, .f32⟩
  | .hbm, ⟨21, _⟩ => ⟨S256, .f32⟩
  | .hbm, ⟨22, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x2048, .f32⟩
  | .local _ .vmem, ⟨3, _⟩ => ⟨S1x2048x2048, .f32⟩
  | .local _ .vmem, ⟨4, _⟩ => ⟨S1x2048x1, .f32⟩
  | .local _ .vmem, ⟨5, _⟩ => ⟨S1x2048x1, .f32⟩
  | .local _ .vmem, ⟨6, _⟩ => ⟨S128x128, .f32⟩
  | .local _ .vmem, ⟨7, _⟩ => ⟨S128, .f32⟩
  | .local _ .vmem, ⟨8, _⟩ => ⟨S128x256, .f32⟩
  | .local _ .vmem, ⟨9, _⟩ => ⟨S256, .f32⟩
  | .local _ .vmem, ⟨10, _⟩ => ⟨S128x256, .f32⟩
  | .local _ .vmem, ⟨11, _⟩ => ⟨S256, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S1x2048x128, .f32⟩
  | .local _ .vmem, ⟨17, _⟩ => ⟨S1x2048x128, .f32⟩
  | .local _ .vmem, ⟨18, _⟩ => ⟨S2048x128, .f32⟩
  | .local _ .vmem, ⟨19, _⟩ => ⟨S2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v37 : BitVec 32 := Scalar.addi c0_i32 c8_i32
  let c1_i32 : BitVec 32 := 1#32
  ⟨c0_i32, v37, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v41 : BitVec 32 := Scalar.muli arg17 c256_i32
  v41
def k0_off1 (k0_t1 : Fin k0_t1_loop.trips) : Fin 3 → Nat :=
  let c0_29 : Index := 0#32
  let c0_i32 : BitVec 32 := 0#32
  let c1_i32 : BitVec 32 := 1#32
  let arg17 : BitVec 32 := Scf.iv c0_i32 c1_i32 k0_t1
  let c256_i32 : BitVec 32 := 256#32
  let v41 : BitVec 32 := Scalar.muli arg17 c256_i32
  let v42 : BitVec 32 := v41
  let v43 : Index := Scalar.indexCast v42
  let c0_30 : Index := 0#32
  ![0, v43.toNat, 0]
def k0_off2 (k0_t1 : Fin k0_t1_loop.trips) : Fin 3 → Nat :=
  let c0_32 : Index := 0#32
  let c0_i32 : BitVec 32 := 0#32
  let c1_i32 : BitVec 32 := 1#32
  let arg17 : BitVec 32 := Scf.iv c0_i32 c1_i32 k0_t1
  let c256_i32 : BitVec 32 := 256#32
  let v41 : BitVec 32 := Scalar.muli arg17 c256_i32
  let v42 : BitVec 32 := v41
  let v48 : Index := Scalar.indexCast v42
  let c0_33 : Index := 0#32
  ![0, v48.toNat, 0]
def k0_off3 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v41 : BitVec 32 := Scalar.muli arg17 c256_i32
  let v42 : BitVec 32 := v41
  let v55 : Index := Scalar.indexCast v42
  let c0_35 : Index := 0#32
  ![v55.toNat, 0]
@[reducible] def k0_t2_loop : Scf.Loop 32 :=
  let c0_i32_25 : BitVec 32 := 0#32
  let c8_i32_26 : BitVec 32 := 8#32
  let v40 : BitVec 32 := Scalar.addi c0_i32_25 c8_i32_26
  let c1_i32_27 : BitVec 32 := 1#32
  ⟨c0_i32_25, v40, c1_i32_27⟩
def k0_mult2 (k0_t2 : Fin k0_t2_loop.trips) : BitVec 32 :=
  let c0_i32_25 : BitVec 32 := 0#32
  let c1_i32_27 : BitVec 32 := 1#32
  let arg17 : BitVec 32 := Scf.iv c0_i32_25 c1_i32_27 k0_t2
  let c256_i32 : BitVec 32 := 256#32
  let v41 : BitVec 32 := Scalar.muli arg17 c256_i32
  v41
def k0_off4 (k0_t2 : Fin k0_t2_loop.trips) : Fin 3 → Nat :=
  let c0_29 : Index := 0#32
  let c0_i32_25 : BitVec 32 := 0#32
  let c1_i32_27 : BitVec 32 := 1#32
  let arg17 : BitVec 32 := Scf.iv c0_i32_25 c1_i32_27 k0_t2
  let c256_i32 : BitVec 32 := 256#32
  let v41 : BitVec 32 := Scalar.muli arg17 c256_i32
  let v42 : BitVec 32 := v41
  let v43 : Index := Scalar.indexCast v42
  let c0_30 : Index := 0#32
  ![0, v43.toNat, 0]
def k0_off5 (k0_t2 : Fin k0_t2_loop.trips) : Fin 3 → Nat :=
  let c0_32 : Index := 0#32
  let c0_i32_25 : BitVec 32 := 0#32
  let c1_i32_27 : BitVec 32 := 1#32
  let arg17 : BitVec 32 := Scf.iv c0_i32_25 c1_i32_27 k0_t2
  let c256_i32 : BitVec 32 := 256#32
  let v41 : BitVec 32 := Scalar.muli arg17 c256_i32
  let v42 : BitVec 32 := v41
  let v48 : Index := Scalar.indexCast v42
  let c0_33 : Index := 0#32
  ![0, v48.toNat, 0]
def k0_off6 (k0_t2 : Fin k0_t2_loop.trips) : Fin 2 → Nat :=
  let c0_i32_25 : BitVec 32 := 0#32
  let c1_i32_27 : BitVec 32 := 1#32
  let arg17 : BitVec 32 := Scf.iv c0_i32_25 c1_i32_27 k0_t2
  let c256_i32 : BitVec 32 := 256#32
  let v41 : BitVec 32 := Scalar.muli arg17 c256_i32
  let v42 : BitVec 32 := v41
  let v55 : Index := Scalar.indexCast v42
  let c0_35 : Index := 0#32
  ![v55.toNat, 0]
def k0_off7 (k0_t2 : Fin k0_t2_loop.trips) : Fin 3 → Nat :=
  let c0_42 : Index := 0#32
  let c0_i32_25 : BitVec 32 := 0#32
  let c1_i32_27 : BitVec 32 := 1#32
  let arg17 : BitVec 32 := Scf.iv c0_i32_25 c1_i32_27 k0_t2
  let c256_i32 : BitVec 32 := 256#32
  let v41 : BitVec 32 := Scalar.muli arg17 c256_i32
  let v42 : BitVec 32 := v41
  let v85 : Index := Scalar.indexCast v42
  let c0_43 : Index := 0#32
  ![0, v85.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S128x128_S128x128_S128x256_d1 : Shape.Concatenates [S128x128, S128x128] S128x256 1
  concatenates_S128_S128_S256_d0 : Shape.Concatenates [S128, S128] S256 0
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  h_S1x256x2048 : 0 < S1x256x2048.numel
  shapeCasts_S1x256x2048_S256x2048 : S1x256x2048.ShapeCasts S256x2048
  h_S1x256x1 : 0 < S1x256x1.numel
  shapeCasts_S1x256x1_S256x1 : S1x256x1.ShapeCasts S256x1
  broadcasts_S256x1_S256x128 : S256x1.Broadcasts S256x128
  h_S256x128 : 0 < S256x128.numel
  broadcasts_S1x256_S256x256 : S1x256.Broadcasts S256x256
  slices_S256x256_o0_0_S256x128 : S256x256.Slices ![0, 0] S256x128
  slices_S256x256_o0_128_S256x128 : S256x256.Slices ![0, 128] S256x128
  broadcasts_S1x128_S256x128 : S1x128.Broadcasts S256x128
  shapeCasts_S256x128_S256x128 : S256x128.ShapeCasts S256x128
  h_S1x256x128 : 0 < S1x256x128.numel
  shapeCasts_S1x256x128_S256x128 : S1x256x128.ShapeCasts S256x128
  shapeCasts_S256x128_S1x256x128 : S256x128.ShapeCasts S1x256x128
  dot_S2048x128_S128x128_S2048x128_1_0_0_1_n_n_wf : DotDims.WF S2048x128 S128x128 S2048x128 [1] [0] [0] [1] [] []
  dot_S256x2048_S2048x128_S256x128_1_0_0_1_n_n_wf : DotDims.WF S256x2048 S2048x128 S256x128 [1] [0] [0] [1] [] []
  dot_S256x128_S128x256_S256x256_1_0_0_1_n_n_wf : DotDims.WF S256x128 S128x256 S256x256 [1] [0] [0] [1] [] []
  dot_S256x128_S128x128_S256x128_1_0_0_1_n_n_wf : DotDims.WF S256x128 S128x128 S256x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x2048.size a ≤ S1x2048x2048.size a
  k0_off2_inb : ∀ k0_t1 : Fin k0_t1_loop.trips, ∀ a, (k0_off2 k0_t1) a + S1x256x1.size a ≤ S1x2048x1.size a
  k0_off3_inb : ∀ k0_t1 : Fin k0_t1_loop.trips, ∀ a, (k0_off3 k0_t1) a + S256x128.size a ≤ S2048x128.size a
  k0_t2_ok : k0_t2_loop.OK
  k0_mult2_dvd : ∀ k0_t2 : Fin k0_t2_loop.trips, 256 ∣ (k0_mult2 k0_t2).toNat
  k0_off4_inb : ∀ k0_t2 : Fin k0_t2_loop.trips, ∀ a, (k0_off4 k0_t2) a + S1x256x2048.size a ≤ S1x2048x2048.size a
  k0_off5_inb : ∀ k0_t2 : Fin k0_t2_loop.trips, ∀ a, (k0_off5 k0_t2) a + S1x256x1.size a ≤ S1x2048x1.size a
  k0_off6_inb : ∀ k0_t2 : Fin k0_t2_loop.trips, ∀ a, (k0_off6 k0_t2) a + S256x128.size a ≤ S2048x128.size a
  k0_off7_inb : ∀ k0_t2 : Fin k0_t2_loop.trips, ∀ a, (k0_off7 k0_t2) a + S1x256x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S16x2048x2048.size a
  hwx0_1 : ∀ i : grid0.Coords, EltTy.bits .f32 = 32 ∨ (Rect.block (s := S16x2048x2048) S1x2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S16x2048x1.size a
  hwx0_2 : ∀ i : grid0.Coords, EltTy.bits .f32 = 32 ∨ (Rect.block (s := S16x2048x1) S1x2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x2048x128.size a ≤ S16x2048x128.size a
  hwx0_13 : ∀ i : grid0.Coords, EltTy.bits .f32 = 32 ∨ (Rect.block (s := S16x2048x128) S1x2048x128.size (cc0_transform_13 i) (hinb0_13 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S1x2048x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S16x2048x1 : Shape := ⟨3, ![16, 2048, 1]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 143
  | .vmem => 0
  | .smem => 0
  | _ => 0

abbrev hbmTy0_0 (i : Nat) : BufTy := match i % 128 with
  | 0 => ⟨S16x2048x128, .f32⟩
  | 1 => ⟨S16x2048x2048, .f32⟩
  | 2 => ⟨S16x2048x1, .f32⟩
  | 3 => ⟨S16x2048x1, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S16x2048x128, .f32⟩
  | 19 => ⟨S1x1x128, .f32⟩
  | 20 => ⟨S16x2048x128, .f32⟩
  | 21 => ⟨S16x2048x128, .f32⟩
  | 22 => ⟨S_, .f32⟩
  | 23 => ⟨S16x2048x128, .f32⟩
  | 24 => ⟨S16x2048x128, .f32⟩
  | 25 => ⟨S16x2048x128, .f32⟩
  | 26 => ⟨S_, .f32⟩
  | 27 => ⟨S16x2048x1, .f32⟩
  | 28 => ⟨S16x2048x1, .f32⟩
  | 29 => ⟨S16x2048x128, .f32⟩
  | 30 => ⟨S16x2048x128, .f32⟩
  | 31 => ⟨S16x2048x128, .f32⟩
  | 32 => ⟨S1x1x128, .f32⟩
  | 33 => ⟨S16x2048x128, .f32⟩
  | 34 => ⟨S16x2048x128, .f32⟩
  | 35 => ⟨S16x2048x128, .f32⟩
  | 36 => ⟨S16x2048x128, .f32⟩
  | 37 => ⟨S1x1x128, .f32⟩
  | 38 => ⟨S16x2048x128, .f32⟩
  | 39 => ⟨S16x2048x128, .f32⟩
  | 40 => ⟨S16x2048x128, .f32⟩
  | 41 => ⟨S16x2048x128, .f32⟩
  | 42 => ⟨S_, .f32⟩
  | 43 => ⟨S16x2048x128, .f32⟩
  | 44 => ⟨S16x2048x128, .f32⟩
  | 45 => ⟨S_, .f32⟩
  | 46 => ⟨S16x2048x128, .f32⟩
  | 47 => ⟨S16x2048x128, .f32⟩
  | 48 => ⟨S16x2048x128, .f32⟩
  | 49 => ⟨S1x1x128, .f32⟩
  | 50 => ⟨S16x2048x128, .f32⟩
  | 51 => ⟨S16x2048x128, .f32⟩
  | 52 => ⟨S16x2048x128, .f32⟩
  | 53 => ⟨S16x2048x128, .f32⟩
  | 54 => ⟨S1x1x128, .f32⟩
  | 55 => ⟨S16x2048x128, .f32⟩
  | 56 => ⟨S16x2048x128, .f32⟩
  | 57 => ⟨S16x2048x128, .f32⟩
  | 58 => ⟨S16x2048x128, .f32⟩
  | 59 => ⟨S_, .f32⟩
  | 60 => ⟨S16x2048x128, .f32⟩
  | 61 => ⟨S16x2048x128, .f32⟩
  | 62 => ⟨S_, .f32⟩
  | 63 => ⟨S16x2048x128, .f32⟩
  | 64 => ⟨S16x2048x128, .f32⟩
  | 65 => ⟨S16x2048x128, .f32⟩
  | 66 => ⟨S1x1x128, .f32⟩
  | 67 => ⟨S16x2048x128, .f32⟩
  | 68 => ⟨S16x2048x128, .f32⟩
  | 69 => ⟨S16x2048x128, .f32⟩
  | 70 => ⟨S16x2048x128, .f32⟩
  | 71 => ⟨S16x2048x128, .f32⟩
  | 72 => ⟨S1x1x128, .f32⟩
  | 73 => ⟨S16x2048x128, .f32⟩
  | 74 => ⟨S16x2048x128, .f32⟩
  | 75 => ⟨S_, .f32⟩
  | 76 => ⟨S16x2048x128, .f32⟩
  | 77 => ⟨S16x2048x128, .f32⟩
  | 78 => ⟨S16x2048x128, .f32⟩
  | 79 => ⟨S_, .f32⟩
  | 80 => ⟨S16x2048x128, .f32⟩
  | 81 => ⟨S16x2048x128, .f32⟩
  | 82 => ⟨S16x2048x128, .f32⟩
  | 83 => ⟨S16x2048x128, .f32⟩
  | 84 => ⟨S16x2048x128, .f32⟩
  | 85 => ⟨S_, .f32⟩
  | 86 => ⟨S16x2048x1, .f32⟩
  | 87 => ⟨S16x2048x1, .f32⟩
  | 88 => ⟨S16x2048x128, .f32⟩
  | 89 => ⟨S16x2048x128, .f32⟩
  | 90 => ⟨S16x2048x128, .f32⟩
  | 91 => ⟨S1x1x128, .f32⟩
  | 92 => ⟨S16x2048x128, .f32⟩
  | 93 => ⟨S16x2048x128, .f32⟩
  | 94 => ⟨S16x2048x128, .f32⟩
  | 95 => ⟨S16x2048x128, .f32⟩
  | 96 => ⟨S1x1x128, .f32⟩
  | 97 => ⟨S16x2048x128, .f32⟩
  | 98 => ⟨S16x2048x128, .f32⟩
  | 99 => ⟨S16x2048x128, .f32⟩
  | 100 => ⟨S16x2048x128, .f32⟩
  | 101 => ⟨S_, .f32⟩
  | 102 => ⟨S16x2048x128, .f32⟩
  | 103 => ⟨S16x2048x128, .f32⟩
  | 104 => ⟨S_, .f32⟩
  | 105 => ⟨S16x2048x128, .f32⟩
  | 106 => ⟨S16x2048x128, .f32⟩
  | 107 => ⟨S16x2048x128, .f32⟩
  | 108 => ⟨S1x1x128, .f32⟩
  | 109 => ⟨S16x2048x128, .f32⟩
  | 110 => ⟨S16x2048x128, .f32⟩
  | 111 => ⟨S16x2048x128, .f32⟩
  | 112 => ⟨S16x2048x128, .f32⟩
  | 113 => ⟨S1x1x128, .f32⟩
  | 114 => ⟨S16x2048x128, .f32⟩
  | 115 => ⟨S16x2048x128, .f32⟩
  | 116 => ⟨S16x2048x128, .f32⟩
  | 117 => ⟨S16x2048x128, .f32⟩
  | 118 => ⟨S_, .f32⟩
  | 119 => ⟨S16x2048x128, .f32⟩
  | 120 => ⟨S16x2048x128, .f32⟩
  | 121 => ⟨S_, .f32⟩
  | 122 => ⟨S16x2048x128, .f32⟩
  | 123 => ⟨S16x2048x128, .f32⟩
  | 124 => ⟨S16x2048x128, .f32⟩
  | 125 => ⟨S1x1x128, .f32⟩
  | 126 => ⟨S16x2048x128, .f32⟩
  | 127 => ⟨S16x2048x128, .f32⟩
  | _ => ⟨S16x2048x128, .f32⟩

abbrev hbmTy0_1 (i : Nat) : BufTy := match i % 128 with
  | 0 => ⟨S16x2048x128, .f32⟩
  | 1 => ⟨S16x2048x128, .f32⟩
  | 2 => ⟨S16x2048x128, .f32⟩
  | 3 => ⟨S1x1x128, .f32⟩
  | 4 => ⟨S16x2048x128, .f32⟩
  | 5 => ⟨S16x2048x128, .f32⟩
  | 6 => ⟨S_, .f32⟩
  | 7 => ⟨S16x2048x128, .f32⟩
  | 8 => ⟨S16x2048x128, .f32⟩
  | 9 => ⟨S16x2048x128, .f32⟩
  | 10 => ⟨S_, .f32⟩
  | 11 => ⟨S16x2048x128, .f32⟩
  | 12 => ⟨S16x2048x128, .f32⟩
  | 13 => ⟨S16x2048x128, .f32⟩
  | 14 => ⟨S16x2048x128, .f32⟩
  | _ => ⟨S16x2048x128, .f32⟩

abbrev hbmTy (i : Nat) : BufTy := match i / 128 with
  | 0 => hbmTy0_0 i
  | 1 => hbmTy0_1 i
  | _ => ⟨S16x2048x128, .f32⟩

abbrev bufTy : (tb : Table) → Fin (tcTables nBuf tb) → BufTy
  | .hbm, ⟨i, _⟩ => hbmTy i
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_cst_4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_6 : Ref sig .tc := ⟨.hbm, 101, rfl⟩
abbrev main_v72 : Ref sig .tc := ⟨.hbm, 102, rfl⟩
abbrev main_v73 : Ref sig .tc := ⟨.hbm, 103, rfl⟩
abbrev main_cst_7 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_8 : Ref sig .tc := ⟨.hbm, 118, rfl⟩
abbrev main_v87 : Ref sig .tc := ⟨.hbm, 119, rfl⟩
abbrev main_v88 : Ref sig .tc := ⟨.hbm, 120, rfl⟩
abbrev main_cst_9 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call2_cst : Ref sig .tc := ⟨.hbm, 134, rfl⟩
abbrev main_call2_v0 : Ref sig .tc := ⟨.hbm, 135, rfl⟩
abbrev main_v101 : Ref sig .tc := ⟨.hbm, 136, rfl⟩
abbrev main_v102 : Ref sig .tc := ⟨.hbm, 137, rfl⟩
abbrev main_cst_10 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  bcast_S_S16x2048x128 : S_.BroadcastsInDim S16x2048x128 (![] : Fin 0 → Fin S16x2048x128.rank)
  bcast_S_S16x2048x1 : S_.BroadcastsInDim S16x2048x1 (![] : Fin 0 → Fin S16x2048x1.rank)
  bcast_S16x2048x1_S16x2048x128_0_1_2 : S16x2048x1.BroadcastsInDim S16x2048x128 (![0, 1, 2] : Fin 3 → Fin S16x2048x128.rank)
  dot_S16x2048x128_S128x128_S16x2048x128_2_0_01_1_n_n_wf : DotDims.WF S16x2048x128 S128x128 S16x2048x128 [2] [0] [0, 1] [1] [] []
  dot_S16x2048x2048_S16x2048x128_S16x2048x128_2_1_1_2_0_0_wf : DotDims.WF S16x2048x2048 S16x2048x128 S16x2048x128 [2] [1] [1] [2] [0] [0]

variable [Facts₀]

def dot_S16x2048x128_S128x128_S16x2048x128_2_0_01_1_n_n : DotDims S16x2048x128 S128x128 S16x2048x128 where
  lhsContracting := [2]
  rhsContracting := [0]
  lhsNonContracting := [0, 1]
  rhsNonContracting := [1]
  lhsBatch := []
  rhsBatch := []
  wf := dot_S16x2048x128_S128x128_S16x2048x128_2_0_01_1_n_n_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Spec.lean ====
/-
  The function both programs compute, stated once, per batch, on the extended reals.

  A batch has 2048 nodes with 128 features. The layer first encodes the features, h⁰ = relu(x·Wₑ + bₑ), and then applies
  twice the gated update
      a  = (S·h) ∘ (1 + f)                         (aggregate over the dense adjacency S, scaled row by row)
      z  = σ(((a·Wz₀ + bz₀) + h·Wz₁) + bz₁)         (update gate)
      r  = σ(((a·Wr₀ + br₀) + h·Wr₁) + br₁)         (reset gate)
      c  = relu(((a·Wh₀ + bh₀) + (r∘h)·Wh₁) + bh₁)  (candidate)
      h' = c∘z + h∘(1 − z).
  Every sum is a finite sum on the extended reals and every parenthesis is kept as the programs have it, so that no
  law of arithmetic is needed to compare them: only which entries are read.

  The update is row-wise in everything except the aggregate's right factor, which is the whole previous h. It is
  therefore stated over an ARBITRARY type `R` of rows: the rows being updated come with their own rows of S, f and h,
  next to the whole h. Taking all 2048 rows gives one step of the layer; taking the 256 rows of a tile gives what a
  tile of the kernel computes, and the two agree on the tile's rows by definition (`step_rows`).
-/
import Idealize.ShloMosaic.PureOps.Ideal
import Idealize.ShloMosaic.Lib.ValueIdx

noncomputable section

namespace Cert.Spec

open Idealize.ShloMosaic
open scoped BigOperators

/-- The two float literals of the programs, kept as their words: 0.0 and 1.0. -/
abbrev zeroF : EReal := Ideal.ofBits .f32 0x00000000#32
abbrev oneF : EReal := Ideal.ofBits .f32 0x3F800000#32

/-- The word of 1.0 is the real number one. -/
theorem oneF_eq : oneF = 1 := by
  have h : Ideal.ofBits .f32 0x3F800000#32 = ((1 : ℝ) : EReal) := by
    simp [Ideal.ofBits, Ideal.ieee, -EReal.coe_mul]; norm_num
  exact h.trans EReal.coe_one

/-- The logistic function as the reference spells it: 1 / (1 + e^(−x)), with the literal one. -/
def sigm (x : EReal) : EReal := Ideal.div oneF (oneF + Ideal.exp (-x))

/-- … which is the one-operation logistic of the kernel. -/
theorem sigm_eq (x : EReal) : sigm x = Ideal.logistic x := by
  unfold sigm Ideal.logistic
  rw [oneF_eq]

/-- A 128 × 128 weight with its bias. -/
abbrev Wt := Fin 128 → Fin 128 → EReal
abbrev Bs := Fin 128 → EReal
/-- A block of rows of features, and the whole previous state. -/
abbrev Rows (R : Type) := R → Fin 128 → EReal
abbrev Full := Fin 2048 → Fin 128 → EReal

/-- The twelve parameters of the gated update. -/
structure Params where
  Wz0 : Wt
  bz0 : Bs
  Wz1 : Wt
  bz1 : Bs
  Wr0 : Wt
  br0 : Bs
  Wr1 : Wt
  br1 : Bs
  Wh0 : Wt
  bh0 : Bs
  Wh1 : Wt
  bh1 : Bs

variable {R : Type}

/-- A row block times a weight: entry (n, o) is Σ_k u (n, k) · W (k, o). -/
def mm (u : Rows R) (W : Wt) : Rows R := fun n o => ∑ k : Fin 128, u n k * W k o

/-- The encoding relu(x·Wₑ + bₑ). -/
def enc (x : Rows R) (We : Wt) (be : Bs) : Rows R := fun n o => max (mm x We n o + be o) zeroF

/-- The aggregate (S·h) ∘ (1 + f) on the rows `R`: their rows of S against the WHOLE h. -/
def agg (S : R → Fin 2048 → EReal) (f : R → EReal) (h : Full) : Rows R :=
  fun n o => (∑ j : Fin 2048, S n j * h j o) * (oneF + f n)

/-- A gate σ(((a·W₀ + b₀) + u·W₁) + b₁). -/
def gate (a u : Rows R) (W0 : Wt) (b0 : Bs) (W1 : Wt) (b1 : Bs) : Rows R :=
  fun n o => sigm (((mm a W0 n o + b0 o) + mm u W1 n o) + b1 o)

/-- The candidate relu(((a·W₀ + b₀) + (r∘u)·W₁) + b₁). -/
def cand (a u r : Rows R) (W0 : Wt) (b0 : Bs) (W1 : Wt) (b1 : Bs) : Rows R :=
  fun n o => max (((mm a W0 n o + b0 o) + mm (fun n k => r n k * u n k) W1 n o) + b1 o) zeroF

/-- The convex mix c∘z + u∘(1 − z). -/
def mix (c z u : Rows R) : Rows R := fun n o => c n o * z n o + u n o * (oneF - z n o)

/-- One gated update of the rows `R`: `u` are these rows of the previous state, `h` all of it. -/
def step (P : Params) (S : R → Fin 2048 → EReal) (f : R → EReal) (h : Full) (u : Rows R) : Rows R :=
  mix (cand (agg S f h) u (gate (agg S f h) u P.Wr0 P.br0 P.Wr1 P.br1) P.Wh0 P.bh0 P.Wh1 P.bh1)
    (gate (agg S f h) u P.Wz0 P.bz0 P.Wz1 P.bz1) u

/-- Updating a selection `ι` of the rows is selecting from the update of all rows. -/
theorem step_rows {R' : Type} (ι : R' → R) (P : Params) (S : R → Fin 2048 → EReal) (f : R → EReal) (h : Full) (u : Rows R)
    (n : R') (o : Fin 128) :
    step P (fun n => S (ι n)) (fun n => f (ι n)) h (fun n => u (ι n)) n o = step P S f h u (ι n) o := rfl

/-- The layer on one batch: encode, then two updates of all 2048 rows. -/
def layer (x : Full) (We : Wt) (be : Bs) (P : Params) (S : Fin 2048 → Fin 2048 → EReal) (f : Fin 2048 → EReal) : Full :=
  step P S f (step P S f (enc x We be) (enc x We be)) (step P S f (enc x We be) (enc x We be))

/-! ## Reading the argument arrays by coordinates -/

open Idealize.ShloMosaic.ValueIdx

/-- Batch `b` of a [16, 2048, 128] array, as rows of features. -/
def rowsOf (h : (⟨3, ![16, 2048, 128]⟩ : Shape).Idx → EReal) (b : Fin 16) : Full := fun n k => h (ix3 b n k)
/-- Batch `b` of the adjacency [16, 2048, 2048]. -/
def adjOf (s : (⟨3, ![16, 2048, 2048]⟩ : Shape).Idx → EReal) (b : Fin 16) : Fin 2048 → Fin 2048 → EReal :=
  fun n j => s (ix3 b n j)
/-- Batch `b` of the per-node scale [16, 2048, 1]. -/
def colOf (f : (⟨3, ![16, 2048, 1]⟩ : Shape).Idx → EReal) (b : Fin 16) : Fin 2048 → EReal := fun n => f (ix3 b n 0)
/-- A [128, 128] weight and a [128] bias. -/
def wOf (W : (⟨2, ![128, 128]⟩ : Shape).Idx → EReal) : Wt := fun k o => W (ix2 k o)
def bOf (v : (⟨1, ![128]⟩ : Shape).Idx → EReal) : Bs := fun o => v (ix1 o)

/-- The layer's result array as ONE function of the argument arrays: entry (b, n, o) is the layer on batch `b`
    at row `n`, feature `o`. -/
def G (x : (⟨3, ![16, 2048, 128]⟩ : Shape).Idx → EReal) (s : (⟨3, ![16, 2048, 2048]⟩ : Shape).Idx → EReal)
    (f : (⟨3, ![16, 2048, 1]⟩ : Shape).Idx → EReal) (We : (⟨2, ![128, 128]⟩ : Shape).Idx → EReal)
    (be : (⟨1, ![128]⟩ : Shape).Idx → EReal)
    (Wz0 : (⟨2, ![128, 128]⟩ : Shape).Idx → EReal) (bz0 : (⟨1, ![128]⟩ : Shape).Idx → EReal)
    (Wz1 : (⟨2, ![128, 128]⟩ : Shape).Idx → EReal) (bz1 : (⟨1, ![128]⟩ : Shape).Idx → EReal)
    (Wr0 : (⟨2, ![128, 128]⟩ : Shape).Idx → EReal) (br0 : (⟨1, ![128]⟩ : Shape).Idx → EReal)
    (Wr1 : (⟨2, ![128, 128]⟩ : Shape).Idx → EReal) (br1 : (⟨1, ![128]⟩ : Shape).Idx → EReal)
    (Wh0 : (⟨2, ![128, 128]⟩ : Shape).Idx → EReal) (bh0 : (⟨1, ![128]⟩ : Shape).Idx → EReal)
    (Wh1 : (⟨2, ![128, 128]⟩ : Shape).Idx → EReal) (bh1 : (⟨1, ![128]⟩ : Shape).Idx → EReal) :
    (⟨3, ![16, 2048, 128]⟩ : Shape).Idx → EReal :=
  fun i => layer (rowsOf x (i 0)) (wOf We) (bOf be)
    ⟨wOf Wz0, bOf bz0, wOf Wz1, bOf bz1, wOf Wr0, bOf br0, wOf Wr1, bOf br1, wOf Wh0, bOf bh0, wOf Wh1, bOf bh1⟩
    (adjOf s (i 0)) (colOf f (i 0)) (i 1) (i 2)

end Cert.Spec

end
-- ==== Proof.RefBlocks.lean ====
/-
  The reference program, block by block, read at an entry.

  The reference's stages are the encoding followed by two copies of one chain of operations: the aggregate
  (S·h)∘(1 + f), two gates, the candidate and the mix. Each block is restated here ONCE as a function of arbitrary
  operand arrays, built from the reference's own generic stages (its first weight product, its first bias broadcast,
  its row scale, its splats of one and zero) and the batched product. Each block read at entry (b, n, o) is the
  corresponding block of the specification on batch b, at row n and feature o: which entries of which operand it
  reads is all there is to show, because the arithmetic is literally the same expression, the logistic being spelt
  1 / (1 + e^(−x)) on both sides. The generated stage terms of both steps are these blocks by unfolding, so the
  reference's result is `Spec.G` of the argument arrays.
-/
import proofs.«114687_j51642686767329_2_alg».proof.Proof.Gen.ReferenceIdeal.Read
import proofs.«114687_j51642686767329_2_alg».proof.Proof.Spec
import Idealize.ShloMosaic.Lib.ValueIdx
import Idealize.ShloMosaic.PureOps.Ideal.Laws

noncomputable section

namespace Cert.RefSide

open Cert.ReferenceIdeal Cert.ReferenceIdeal.Gen Cert.ReferenceIdeal.Read
open Idealize.ShloMosaic Idealize.ShloMosaic.ValueIdx Idealize.ShloMosaic.StableHlo
open scoped BigOperators

/-- The arrays of the program at the ideal instance: features, adjacency, row scale, weight, bias. -/
abbrev A3 := FVec Ideal S16x2048x128 .f32
abbrev AS := FVec Ideal S16x2048x2048 .f32
abbrev AF := FVec Ideal S16x2048x1 .f32
abbrev AW := FVec Ideal S128x128 .f32
abbrev AB := FVec Ideal S128 .f32

/-! ## The generic stages read at an entry -/

/-- A features-by-weight product: entry (b, n, o) is Σ_k l (b, n, k) · r (k, o). -/
theorem prodW_apply (l : A3) (r : AW) (b : Fin 16) (n : Fin 2048) (o : Fin 128) :
    val_main_v0 (F := Ideal) l r (ix3 b n o) = Spec.mm (Spec.rowsOf l b) (Spec.wOf r) n o := by
  rw [val_main_v0_apply]
  unfold Spec.mm Spec.rowsOf Spec.wOf
  refine Finset.sum_congr rfl fun k _ => ?_
  have el : lidx_main_v0 (ix3 b n o) k = ix3 b n k := funext fun a => by
    match a with
    | ⟨0, _⟩ => rfl
    | ⟨1, _⟩ => rfl
    | ⟨2, _⟩ => rfl
  have er : ridx_main_v0 (ix3 b n o) k = ix2 k o := funext fun a => by
    match a with
    | ⟨0, _⟩ => rfl
    | ⟨1, _⟩ => rfl
  rw [el, er]

/-- A bias broadcast over batches and rows: entry (b, n, o) is v o. -/
theorem bias_apply (v : AB) (b : Fin 16) (n : Fin 2048) (o : Fin 128) :
    val_main_v2 (F := Ideal) v (ix3 b n o) = Spec.bOf v o := by
  rw [val_main_v2_apply, val_main_v1_apply]
  exact congrArg v (funext fun a => by
    match a with
    | ⟨0, _⟩ => rfl)

/-- The row scale 1 + f broadcast over features: entry (b, n, o) is 1 + f (b, n). -/
theorem scale_apply (f : AF) (b : Fin 16) (n : Fin 2048) (o : Fin 128) :
    val_main_v8 (F := Ideal) f (ix3 b n o) = Spec.oneF + Spec.colOf f b n := by
  rw [val_main_v8_apply, val_main_v7_apply, val_main_v6_apply, val_main_cst_apply]
  have e : idx_main_v8 (ix3 b n o) = ix3 b n 0 := funext fun a => by
    match a with
    | ⟨0, _⟩ => rfl
    | ⟨1, _⟩ => rfl
    | ⟨2, _⟩ => rfl
  rw [e]
  rfl

/-- The splat of one and the splat of zero. -/
theorem ones_apply (i : S16x2048x128.Idx) : val_main_v21 (F := Ideal) i = Spec.oneF := by
  rw [val_main_v21_apply, val_main_cst_0_apply]
  rfl
theorem zeros_apply (i : S16x2048x128.Idx) : val_main_call0_v0 (F := Ideal) i = Spec.zeroF := by
  rw [val_main_call0_v0_apply, val_main_call0_cst_apply]
  rfl

/-- The batched product of the adjacency with a features array. -/
def prodS (s : AS) (h : A3) : A3 :=
  Host.dotGeneral dot_S16x2048x2048_S16x2048x128_S16x2048x128_2_1_1_2_0_0 none s h

/-- Entry (b, n, o) of the batched product is Σ_j s (b, n, j) · h (b, j, o): batch b only, the whole column o of h. -/
theorem prodS_apply (s : AS) (h : A3) (b : Fin 16) (n : Fin 2048) (o : Fin 128) :
    prodS s h (ix3 b n o) = ∑ j : Fin 2048, Spec.adjOf s b n j * Spec.rowsOf h b j o := by
  unfold prodS
  simp only [Host.dotGeneral]
  rw [Ideal.dotGeneral_apply,
    ← Equiv.sum_comp (contrEquiv1 dot_S16x2048x2048_S16x2048x128_S16x2048x128_2_1_1_2_0_0 2048 rfl rfl).symm]
  refine Finset.sum_congr rfl fun k _ => ?_
  have hk := contrEquiv1_symm_val dot_S16x2048x2048_S16x2048x128_S16x2048x128_2_1_1_2_0_0 2048 rfl rfl k
  have el : dot_S16x2048x2048_S16x2048x128_S16x2048x128_2_1_1_2_0_0.lhsIdx (ix3 b n o)
      ((contrEquiv1 dot_S16x2048x2048_S16x2048x128_S16x2048x128_2_1_1_2_0_0 2048 rfl rfl).symm k) = ix3 b n k :=
    funext fun a => Fin.ext (by
      match a with
      | ⟨0, _⟩ => exact lhs_main_v5_0 _ _
      | ⟨1, _⟩ => exact lhs_main_v5_1 _ _
      | ⟨2, _⟩ => exact (lhs_main_v5_2 _ _).trans hk)
  have er : dot_S16x2048x2048_S16x2048x128_S16x2048x128_2_1_1_2_0_0.rhsIdx (ix3 b n o)
      ((contrEquiv1 dot_S16x2048x2048_S16x2048x128_S16x2048x128_2_1_1_2_0_0 2048 rfl rfl).symm k) = ix3 b k o :=
    funext fun a => Fin.ext (by
      match a with
      | ⟨0, _⟩ => exact rhs_main_v5_0 _ _
      | ⟨1, _⟩ => exact (rhs_main_v5_1 _ _).trans hk
      | ⟨2, _⟩ => exact rhs_main_v5_2 _ _)
  rw [el, er]
  rfl

/-! ## The blocks -/

/-- relu(x·Wₑ + bₑ). -/
def hEnc (x : A3) (We : AW) (be : AB) : A3 :=
  maximumf (addf (val_main_v0 (F := Ideal) x We) (val_main_v2 (F := Ideal) be)) (val_main_call0_v0 (F := Ideal))
/-- (S·h) ∘ (1 + f). -/
def hAgg (s : AS) (f : AF) (h : A3) : A3 := mulf (prodS s h) (val_main_v8 (F := Ideal) f)
/-- ((a·W₀ + b₀) + u·W₁) + b₁. -/
def hLin (a u : A3) (W0 : AW) (b0 : AB) (W1 : AW) (b1 : AB) : A3 :=
  addf (addf (addf (val_main_v0 (F := Ideal) a W0) (val_main_v2 (F := Ideal) b0)) (val_main_v0 (F := Ideal) u W1))
    (val_main_v2 (F := Ideal) b1)
/-- 1 / (1 + e^(−lin)). -/
def hGate (a u : A3) (W0 : AW) (b0 : AB) (W1 : AW) (b1 : AB) : A3 :=
  Host.divf (val_main_v21 (F := Ideal))
    (addf (val_main_v21 (F := Ideal)) (Host.exp (Host.negf (hLin a u W0 b0 W1 b1))))
/-- relu of the linear form with r∘u in the second product. -/
def hCand (a u r : A3) (W0 : AW) (b0 : AB) (W1 : AW) (b1 : AB) : A3 :=
  maximumf (hLin a (mulf r u) W0 b0 W1 b1) (val_main_call0_v0 (F := Ideal))
/-- c∘z + u∘(1 − z). -/
def hMix (c z u : A3) : A3 := addf (mulf c z) (mulf u (subf (val_main_v21 (F := Ideal)) z))
/-- One gated update of every batch. -/
def hStep (s : AS) (f : AF) (Wz0 : AW) (bz0 : AB) (Wz1 : AW) (bz1 : AB) (Wr0 : AW) (br0 : AB) (Wr1 : AW) (br1 : AB)
    (Wh0 : AW) (bh0 : AB) (Wh1 : AW) (bh1 : AB) (h : A3) : A3 :=
  hMix (hCand (hAgg s f h) h (hGate (hAgg s f h) h Wr0 br0 Wr1 br1) Wh0 bh0 Wh1 bh1)
    (hGate (hAgg s f h) h Wz0 bz0 Wz1 bz1) h

/-! ## Each block on batch `b` is the specification's block -/

theorem rows_hEnc (x : A3) (We : AW) (be : AB) (b : Fin 16) :
    Spec.rowsOf (hEnc x We be) b = Spec.enc (Spec.rowsOf x b) (Spec.wOf We) (Spec.bOf be) := by
  funext n o
  show max (val_main_v0 (F := Ideal) x We (ix3 b n o) + val_main_v2 (F := Ideal) be (ix3 b n o))
    (val_main_call0_v0 (F := Ideal) (ix3 b n o)) = _
  rw [prodW_apply, bias_apply, zeros_apply]
  rfl

theorem rows_hAgg (s : AS) (f : AF) (h : A3) (b : Fin 16) :
    Spec.rowsOf (hAgg s f h) b = Spec.agg (Spec.adjOf s b) (Spec.colOf f b) (Spec.rowsOf h b) := by
  funext n o
  show prodS s h (ix3 b n o) * val_main_v8 (F := Ideal) f (ix3 b n o) = _
  rw [prodS_apply, scale_apply]
  rfl

theorem hLin_apply (a u : A3) (W0 : AW) (b0 : AB) (W1 : AW) (b1 : AB) (b : Fin 16) (n : Fin 2048) (o : Fin 128) :
    hLin a u W0 b0 W1 b1 (ix3 b n o)
      = ((Spec.mm (Spec.rowsOf a b) (Spec.wOf W0) n o + Spec.bOf b0 o) + Spec.mm (Spec.rowsOf u b) (Spec.wOf W1) n o)
        + Spec.bOf b1 o := by
  show ((val_main_v0 (F := Ideal) a W0 (ix3 b n o) + val_main_v2 (F := Ideal) b0 (ix3 b n o))
    + val_main_v0 (F := Ideal) u W1 (ix3 b n o)) + val_main_v2 (F := Ideal) b1 (ix3 b n o) = _
  rw [prodW_apply, prodW_apply, bias_apply, bias_apply]

theorem rows_hGate (a u : A3) (W0 : AW) (b0 : AB) (W1 : AW) (b1 : AB) (b : Fin 16) :
    Spec.rowsOf (hGate a u W0 b0 W1 b1) b
      = Spec.gate (Spec.rowsOf a b) (Spec.rowsOf u b) (Spec.wOf W0) (Spec.bOf b0) (Spec.wOf W1) (Spec.bOf b1) := by
  funext n o
  show Ideal.div (val_main_v21 (F := Ideal) (ix3 b n o))
    (val_main_v21 (F := Ideal) (ix3 b n o) + Ideal.exp (-(hLin a u W0 b0 W1 b1 (ix3 b n o)))) = _
  rw [ones_apply, hLin_apply]
  rfl

theorem rows_hCand (a u r : A3) (W0 : AW) (b0 : AB) (W1 : AW) (b1 : AB) (b : Fin 16) :
    Spec.rowsOf (hCand a u r W0 b0 W1 b1) b
      = Spec.cand (Spec.rowsOf a b) (Spec.rowsOf u b) (Spec.rowsOf r b) (Spec.wOf W0) (Spec.bOf b0) (Spec.wOf W1)
          (Spec.bOf b1) := by
  funext n o
  show max (hLin a (mulf r u) W0 b0 W1 b1 (ix3 b n o)) (val_main_call0_v0 (F := Ideal) (ix3 b n o)) = _
  rw [hLin_apply, zeros_apply]
  rfl

theorem rows_hMix (c z u : A3) (b : Fin 16) :
    Spec.rowsOf (hMix c z u) b = Spec.mix (Spec.rowsOf c b) (Spec.rowsOf z b) (Spec.rowsOf u b) := by
  funext n o
  show c (ix3 b n o) * z (ix3 b n o) + u (ix3 b n o) * (val_main_v21 (F := Ideal) (ix3 b n o) - z (ix3 b n o)) = _
  rw [ones_apply]
  rfl

theorem rows_hStep (s : AS) (f : AF) (Wz0 : AW) (bz0 : AB) (Wz1 : AW) (bz1 : AB) (Wr0 : AW) (br0 : AB) (Wr1 : AW)
    (br1 : AB) (Wh0 : AW) (bh0 : AB) (Wh1 : AW) (bh1 : AB) (h : A3) (b : Fin 16) :
    Spec.rowsOf (hStep s f Wz0 bz0 Wz1 bz1 Wr0 br0 Wr1 br1 Wh0 bh0 Wh1 bh1 h) b
      = Spec.step ⟨Spec.wOf Wz0, Spec.bOf bz0, Spec.wOf Wz1, Spec.bOf bz1, Spec.wOf Wr0, Spec.bOf br0, Spec.wOf Wr1,
            Spec.bOf br1, Spec.wOf Wh0, Spec.bOf bh0, Spec.wOf Wh1, Spec.bOf bh1⟩
          (Spec.adjOf s b) (Spec.colOf f b) (Spec.rowsOf h b) (Spec.rowsOf h b) := by
  unfold hStep Spec.step
  rw [rows_hMix, rows_hCand, rows_hGate, rows_hGate, rows_hAgg]

/-! ## The reference's stages are these blocks -/

theorem enc_stage (x0 : A3) (x4 : AW) (x5 : AB) : val_main_v4 (F := Ideal) x0 x4 x5 = hEnc x0 x4 x5 := rfl

theorem step1_stage (x0 : A3) (x1 : AS) (x2 : AF) (x4 : AW) (x5 : AB) (x6 : AW) (x7 : AB) (x8 : AW) (x9 : AB) (x10 : AW)
    (x11 : AB) (x12 : AW) (x13 : AB) (x14 : AW) (x15 : AB) (x16 : AW) (x17 : AB) :
    val_main_v55 (F := Ideal) x0 x1 x2 x4 x5 x6 x7 x8 x9 x10 x11 x12 x13 x14 x15 x16 x17
      = hStep x1 x2 x6 x7 x8 x9 x10 x11 x12 x13 x14 x15 x16 x17 (val_main_v4 (F := Ideal) x0 x4 x5) := rfl

theorem step2_stage (x0 : A3) (x1 : AS) (x2 : AF) (x4 : AW) (x5 : AB) (x6 : AW) (x7 : AB) (x8 : AW) (x9 : AB) (x10 : AW)
    (x11 : AB) (x12 : AW) (x13 : AB) (x14 : AW) (x15 : AB) (x16 : AW) (x17 : AB) :
    val_main_v106 (F := Ideal) x0 x1 x2 x4 x5 x6 x7 x8 x9 x10 x11 x12 x13 x14 x15 x16 x17
      = hStep x1 x2 x6 x7 x8 x9 x10 x11 x12 x13 x14 x15 x16 x17
          (val_main_v55 (F := Ideal) x0 x1 x2 x4 x5 x6 x7 x8 x9 x10 x11 x12 x13 x14 x15 x16 x17) := rfl

/-- The reference's result is `Spec.G` of its arguments. -/
theorem result_eq (x0 : A3) (x1 : AS) (x2 : AF) (x4 : AW) (x5 : AB) (x6 : AW) (x7 : AB) (x8 : AW) (x9 : AB) (x10 : AW)
    (x11 : AB) (x12 : AW) (x13 : AB) (x14 : AW) (x15 : AB) (x16 : AW) (x17 : AB) :
    val_main_v106 (F := Ideal) x0 x1 x2 x4 x5 x6 x7 x8 x9 x10 x11 x12 x13 x14 x15 x16 x17
      = Spec.G x0 x1 x2 x4 x5 x6 x7 x8 x9 x10 x11 x12 x13 x14 x15 x16 x17 := by
  funext i
  obtain ⟨b, n, o, rfl⟩ : ∃ (b : Fin 16) (n : Fin 2048) (o : Fin 128), i = ix3 b n o := ⟨i 0, i 1, i 2, eq_ix3 i⟩
  rw [step2_stage, step1_stage, enc_stage]
  show Spec.rowsOf (hStep x1 x2 x6 x7 x8 x9 x10 x11 x12 x13 x14 x15 x16 x17
    (hStep x1 x2 x6 x7 x8 x9 x10 x11 x12 x13 x14 x15 x16 x17 (hEnc x0 x4 x5))) b n o = _
  rw [rows_hStep, rows_hStep, rows_hEnc]
  rfl

end Cert.RefSide

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibReadAt.lean ====
/-
  General reading lemmas over literal shapes, in the style of the library's layout lemmas: a vector made a column
  ([a] to [a, 1]); a column repeated along rows ([a, 1] to [a, b]); a one-axis minimum reduction at the ideal
  values as the fold of `min` over that axis's coordinates; and a total sum over a rank-three index type with two
  unit axes as the sum over its one long coordinate.
-/
import Idealize.ShloMosaic.PureOps.Ideal.Laws
import Idealize.ShloMosaic.Lib.Pipeline.Value
import Idealize.ShloMosaic.Lib.ValueIdx
import Idealize.ShloMosaic.Lib.ValueLayout

namespace Cert.LibReadAt

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the second axis of an `[a, b]` array, read at `i`, is the sum over the row's entries. -/
theorem sumAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun d => Fin.ext (by match d with | ⟨0, _⟩ => rfl | ⟨1, _⟩ => rfl))

/-- A sum over the first axis of an `[a, b]` array, read at `j`, is the sum over the column's entries. -/
theorem sumAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by match d with | ⟨0, _⟩ => rfl | ⟨1, _⟩ => rfl))

/-- A minimum over the second axis of an `[a, b]` array, read at `i`, is the fold of `min` over the row's entries. -/
theorem minAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  refine (multiReduction_minimumf_single src acc h hφ hacc (ix1 i)).trans ?_
  exact congrArg (fun f => Finset.fold min (Ideal.ofBits φ acc) f (Finset.univ : Finset (Fin b)))
    (funext fun k => congrArg src (funext fun d => Fin.ext (by match d with | ⟨0, _⟩ => rfl | ⟨1, _⟩ => rfl)))

/-- A minimum over the first axis of an `[a, b]` array, read at `j`, is the fold of `min` over the column's entries. -/
theorem minAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (j : Fin b) :
    multiReduction .minimumf [0] ⟨1, ![b]⟩ src acc h hφ hacc (ix1 j)
      = (Finset.univ : Finset (Fin a)).fold min (Ideal.ofBits φ acc) (fun k => src (ix2 k j)) := by
  refine (multiReduction_minimumf_single src acc h hφ hacc (ix1 j)).trans ?_
  exact congrArg (fun f => Finset.fold min (Ideal.ofBits φ acc) f (Finset.univ : Finset (Fin a)))
    (funext fun k => congrArg src (funext fun d => Fin.ext (by match d with | ⟨0, _⟩ => rfl | ⟨1, _⟩ => rfl)))

/-- The indices of a `[1, a, 1]` shape are its middle coordinates. -/
def midEquiv (a : ℕ) : Fin a ≃ (⟨3, ![1, a, 1]⟩ : Shape).Idx where
  toFun k := ix3 (0 : Fin 1) k (0 : Fin 1)
  invFun i := i 1
  left_inv _ := rfl
  right_inv i := funext fun d => match d with
    | ⟨0, _⟩ => Fin.ext (by have h : (i 0).val < 1 := (i 0).isLt; show (0 : ℕ) = (i 0).val; omega)
    | ⟨1, _⟩ => rfl
    | ⟨2, _⟩ => Fin.ext (by have h : (i 2).val < 1 := (i 2).isLt; show (0 : ℕ) = (i 2).val; omega)

/-- So a sum over them is the sum over the middle coordinate. -/
theorem sum_idx_1a1 {M : Type*} [AddCommMonoid M] {a : ℕ} (f : (⟨3, ![1, a, 1]⟩ : Shape).Idx → M) :
    ∑ i, f i = ∑ k : Fin a, f (ix3 (0 : Fin 1) k (0 : Fin 1)) :=
  (Equiv.sum_comp (midEquiv a) f).symm

/-- The indices of a `[1, 1, b]` shape are its last coordinates. -/
def lastEquiv (b : ℕ) : Fin b ≃ (⟨3, ![1, 1, b]⟩ : Shape).Idx where
  toFun k := ix3 (0 : Fin 1) (0 : Fin 1) k
  invFun i := i 2
  left_inv _ := rfl
  right_inv i := funext fun d => match d with
    | ⟨0, _⟩ => Fin.ext (by have h : (i 0).val < 1 := (i 0).isLt; show (0 : ℕ) = (i 0).val; omega)
    | ⟨1, _⟩ => Fin.ext (by have h : (i 1).val < 1 := (i 1).isLt; show (0 : ℕ) = (i 1).val; omega)
    | ⟨2, _⟩ => rfl

/-- So a sum over them is the sum over the last coordinate. -/
theorem sum_idx_11b {M : Type*} [AddCommMonoid M] {b : ℕ} (f : (⟨3, ![1, 1, b]⟩ : Shape).Idx → M) :
    ∑ i, f i = ∑ k : Fin b, f (ix3 (0 : Fin 1) (0 : Fin 1) k) :=
  (Equiv.sum_comp (lastEquiv b) f).symm

end Cert.LibReadAt
-- ==== Proof.KernelTile.lean ====
/-
  One 256-row tile of a gated update, as the kernel computes it, read at an entry.

  A trip of either loop loads a tile's rows of the adjacency S (256 × 2048) and of the row scale f (256 × 1), its own
  256 rows u of the previous state, and uses the whole previous state h (2048 × 128) and the staged parameters. The
  two gates are computed together: the weights of z and r sit side by side in one 128 × 256 matrix (columns 0–127
  for z, 128–255 for r) and likewise the biases in one row of 256, so one 256-wide product gives both and the two
  halves are sliced apart afterwards. Entry (q, c) of a product with side-by-side weights depends on column c of
  the weights only, so the left half is the gate z with the left weights and the right half the gate r with the
  right weights. The casts to the 16-bit format are the identity on the extended reals, a product into a zero
  accumulator is the plain sum of products, and the kernel's one-operation logistic is 1 / (1 + e^(−x)).
  Hence the tile is `Spec.step` on these 256 rows (`tile_apply`).
-/
import proofs.«114687_j51642686767329_2_alg».proof.Proof.Gen.KernelIdeal.Skeleton
import proofs.«114687_j51642686767329_2_alg».proof.Proof.Spec
import proofs.«114687_j51642686767329_2_alg».proof.Proof.LibPlainMatmul
import proofs.«114687_j51642686767329_2_alg».proof.Proof.LibReadAt
import Idealize.ShloMosaic.Lib.ValueLayout
import Idealize.ShloMosaic.Lib.ValueIdx
import Idealize.ShloMosaic.Lib.Pipeline.Value

noncomputable section

namespace Cert.KernelTile

open Cert.KernelIdeal Cert.KernelIdeal.Gen
open Idealize.ShloMosaic Idealize.ShloMosaic.ValueIdx
open scoped BigOperators

/-- Column o of the left half and of the right half of a 256-wide array. -/
def lo (o : Fin 128) : Fin 256 := ⟨o.val, by omega⟩
def hi (o : Fin 128) : Fin 256 := ⟨128 + o.val, by omega⟩

/-- A 256 × 128 tile by rows. -/
def rowsT (a : FVec Ideal S256x128 .f32) : Spec.Rows (Fin 256) := fun q k => a (ix2 q k)

/-! ## The tile's blocks -/

/-- (S_tile · h) ∘ (1 + f_tile). -/
def tAgg (h : FVec Ideal S2048x128 .bf16) (s : Vec Ideal S1x256x2048 .f32) (f : Vec Ideal S1x256x1 .f32) :
    FVec Ideal S256x128 .f32 :=
  mulf (matmul dot_S256x2048_S2048x128_S256x128_1_0_0_1_n_n none
      (truncf .bf16 (shapeCast S256x2048 s shapeCasts_S1x256x2048_S256x2048) bitsLt_bf16_f32) h
      (constant S256x128 .f32 0x00000000#32))
    (broadcastTo S256x128 (addf (broadcast S256x1 (Scalar.ofBits .f32 0x3F800000#32))
      (shapeCast S256x1 f shapeCasts_S1x256x1_S256x1)) broadcasts_S256x1_S256x128)

/-- ((a·W₀ + b₀) + u·W₁) + b₁ with 256-wide (side-by-side) parameters. -/
def tLin2 (W0 W1 : FVec Ideal S128x256 .bf16) (b0 b1 : FVec Ideal S1x256 .f32) (a u : FVec Ideal S256x128 .f32) :
    FVec Ideal S256x256 .f32 :=
  addf (addf (addf (matmul dot_S256x128_S128x256_S256x256_1_0_0_1_n_n none (truncf .bf16 a bitsLt_bf16_f32) W0
      (constant S256x256 .f32 0x00000000#32)) (broadcastTo S256x256 b0 broadcasts_S1x256_S256x256))
    (matmul dot_S256x128_S128x256_S256x256_1_0_0_1_n_n none (truncf .bf16 u bitsLt_bf16_f32) W1
      (constant S256x256 .f32 0x00000000#32))) (broadcastTo S256x256 b1 broadcasts_S1x256_S256x256)

/-- The same with 128-wide parameters. -/
def tLin1 (W0 W1 : FVec Ideal S128x128 .bf16) (b0 b1 : FVec Ideal S1x128 .f32) (a u : FVec Ideal S256x128 .f32) :
    FVec Ideal S256x128 .f32 :=
  addf (addf (addf (matmul dot_S256x128_S128x128_S256x128_1_0_0_1_n_n none (truncf .bf16 a bitsLt_bf16_f32) W0
      (constant S256x128 .f32 0x00000000#32)) (broadcastTo S256x128 b0 broadcasts_S1x128_S256x128))
    (matmul dot_S256x128_S128x128_S256x128_1_0_0_1_n_n none (truncf .bf16 u bitsLt_bf16_f32) W1
      (constant S256x128 .f32 0x00000000#32))) (broadcastTo S256x128 b1 broadcasts_S1x128_S256x128)

/-- Both gates at once, 256 wide. -/
def tG (W0 W1 : FVec Ideal S128x256 .bf16) (b0 b1 : FVec Ideal S1x256 .f32) (a u : FVec Ideal S256x128 .f32) :
    FVec Ideal S256x256 .f32 := logistic (tLin2 W0 W1 b0 b1 a u)
/-- Its two halves. -/
def tZ (g : FVec Ideal S256x256 .f32) : FVec Ideal S256x128 .f32 :=
  extractStridedSlice S256x128 ![0, 0] g slices_S256x256_o0_0_S256x128
def tR (g : FVec Ideal S256x256 .f32) : FVec Ideal S256x128 .f32 :=
  extractStridedSlice S256x128 ![0, 128] g slices_S256x256_o0_128_S256x128
/-- The candidate. -/
def tC (W0 W1 : FVec Ideal S128x128 .bf16) (b0 b1 : FVec Ideal S1x128 .f32) (a u r : FVec Ideal S256x128 .f32) :
    FVec Ideal S256x128 .f32 :=
  maximumf (tLin1 W0 W1 b0 b1 a (mulf r u)) (broadcast S256x128 (Scalar.ofBits .f32 0x00000000#32))
/-- The mix. -/
def tMix (c z u : FVec Ideal S256x128 .f32) : FVec Ideal S256x128 .f32 :=
  addf (mulf c z) (mulf u (subf (broadcast S256x128 (Scalar.ofBits .f32 0x3F800000#32)) z))

/-- The whole tile. -/
def tile (v17 v20 : FVec Ideal S128x256 .bf16) (v22 v24 : FVec Ideal S128x128 .bf16) (v27 v30 : FVec Ideal S1x256 .f32)
    (v32 v34 : FVec Ideal S1x128 .f32) (h : FVec Ideal S2048x128 .bf16) (s : Vec Ideal S1x256x2048 .f32)
    (f : Vec Ideal S1x256x1 .f32) (u : Vec Ideal S256x128 .f32) : FVec Ideal S256x128 .f32 :=
  tMix (tC v22 v24 v32 v34 (tAgg h s f) u (tR (tG v17 v20 v27 v30 (tAgg h s f) u)))
    (tZ (tG v17 v20 v27 v30 (tAgg h s f) u)) u

/-- Both loops' payloads are this tile. -/
theorem pay5_eq (v17 v20 : FVec Ideal S128x256 .bf16) (v22 v24 : FVec Ideal S128x128 .bf16)
    (v27 v30 : FVec Ideal S1x256 .f32) (v32 v34 : FVec Ideal S1x128 .f32) (h : FVec Ideal S2048x128 .bf16)
    (s : Vec Ideal S1x256x2048 .f32) (f : Vec Ideal S1x256x1 .f32) (u : Vec Ideal S256x128 .f32) :
    k0_pay5 (F := Ideal) v17 v20 v22 v24 v27 v30 v32 v34 h s f u = tile v17 v20 v22 v24 v27 v30 v32 v34 h s f u := rfl
theorem pay6_eq (v17 v20 : FVec Ideal S128x256 .bf16) (v22 v24 : FVec Ideal S128x128 .bf16)
    (v27 v30 : FVec Ideal S1x256 .f32) (v32 v34 : FVec Ideal S1x128 .f32) (h : FVec Ideal S2048x128 .bf16)
    (s : Vec Ideal S1x256x2048 .f32) (f : Vec Ideal S1x256x1 .f32) (u : Vec Ideal S256x128 .f32) :
    k0_pay6 (F := Ideal) v17 v20 v22 v24 v27 v30 v32 v34 h s f u = tile v17 v20 v22 v24 v27 v30 v32 v34 h s f u := rfl

/-! ## The blocks read at an entry -/

/-- The tile's aggregate is the specification's, on the tile's rows of S and f against the whole h. -/
theorem rows_tAgg (h : FVec Ideal S2048x128 .bf16) (s : Vec Ideal S1x256x2048 .f32) (f : Vec Ideal S1x256x1 .f32) :
    rowsT (tAgg h s f)
      = Spec.agg (fun q j => s (ix3 (0 : Fin 1) q j)) (fun q => f (ix3 (0 : Fin 1) q (0 : Fin 1)))
          (fun j o => h (ix2 j o)) := by
  funext q k
  show FloatOps.matmul (DotDims.plain 256 2048 128) none
      (truncf .bf16 (shapeCast S256x2048 s shapeCasts_S1x256x2048_S256x2048) bitsLt_bf16_f32) h
      (constant ⟨2, ![256, 128]⟩ .f32 0x00000000#32) (ix2 q k)
    * broadcastTo ⟨2, ![256, 128]⟩ (addf (broadcast S256x1 (Scalar.ofBits .f32 0x3F800000#32))
      (shapeCast S256x1 f shapeCasts_S1x256x1_S256x1)) broadcasts_S256x1_S256x128 (ix2 q k) = _
  rw [Cert.PlainMatmul.matmul_zero_apply, Cert.LibReadAt.broadcastTo_a1_ab_apply]
  show (∑ j : Fin 2048, shapeCast S256x2048 s shapeCasts_S1x256x2048_S256x2048 (ix2 q j) * h (ix2 j k))
    * (Spec.oneF + shapeCast S256x1 f shapeCasts_S1x256x1_S256x1 (ix2 q (0 : Fin 1))) = _
  rw [shapeCast_1ab_ab_apply f]
  simp only [shapeCast_1ab_ab_apply s]
  rfl

/-- The 256-wide linear form at column `sel o`: only column `sel o` of the parameters enters. -/
theorem tLin2_apply (W0 W1 : FVec Ideal S128x256 .bf16) (b0 b1 : FVec Ideal S1x256 .f32)
    (a u : FVec Ideal S256x128 .f32) (sel : Fin 128 → Fin 256) (q : Fin 256) (o : Fin 128) :
    tLin2 W0 W1 b0 b1 a u (ix2 q (sel o))
      = ((Spec.mm (rowsT a) (fun k o => W0 (ix2 k (sel o))) q o + b0 (ix2 (0 : Fin 1) (sel o)))
          + Spec.mm (rowsT u) (fun k o => W1 (ix2 k (sel o))) q o) + b1 (ix2 (0 : Fin 1) (sel o)) := by
  show ((FloatOps.matmul (DotDims.plain 256 128 256) none (truncf .bf16 a bitsLt_bf16_f32) W0
        (constant ⟨2, ![256, 256]⟩ .f32 0x00000000#32) (ix2 q (sel o))
      + broadcastTo ⟨2, ![256, 256]⟩ b0 broadcasts_S1x256_S256x256 (ix2 q (sel o)))
      + FloatOps.matmul (DotDims.plain 256 128 256) none (truncf .bf16 u bitsLt_bf16_f32) W1
        (constant ⟨2, ![256, 256]⟩ .f32 0x00000000#32) (ix2 q (sel o)))
      + broadcastTo ⟨2, ![256, 256]⟩ b1 broadcasts_S1x256_S256x256 (ix2 q (sel o)) = _
  rw [Cert.PlainMatmul.matmul_zero_apply, Cert.PlainMatmul.matmul_zero_apply, broadcastTo_1b_ab_apply,
    broadcastTo_1b_ab_apply]
  rfl

/-- The 128-wide linear form. -/
theorem tLin1_apply (W0 W1 : FVec Ideal S128x128 .bf16) (b0 b1 : FVec Ideal S1x128 .f32)
    (a u : FVec Ideal S256x128 .f32) (q : Fin 256) (o : Fin 128) :
    tLin1 W0 W1 b0 b1 a u (ix2 q o)
      = ((Spec.mm (rowsT a) (fun k o => W0 (ix2 k o)) q o + b0 (ix2 (0 : Fin 1) o))
          + Spec.mm (rowsT u) (fun k o => W1 (ix2 k o)) q o) + b1 (ix2 (0 : Fin 1) o) := by
  show ((FloatOps.matmul (DotDims.plain 256 128 128) none (truncf .bf16 a bitsLt_bf16_f32) W0
        (constant ⟨2, ![256, 128]⟩ .f32 0x00000000#32) (ix2 q o)
      + broadcastTo ⟨2, ![256, 128]⟩ b0 broadcasts_S1x128_S256x128 (ix2 q o))
      + FloatOps.matmul (DotDims.plain 256 128 128) none (truncf .bf16 u bitsLt_bf16_f32) W1
        (constant ⟨2, ![256, 128]⟩ .f32 0x00000000#32) (ix2 q o))
      + broadcastTo ⟨2, ![256, 128]⟩ b1 broadcasts_S1x128_S256x128 (ix2 q o) = _
  rw [Cert.PlainMatmul.matmul_zero_apply, Cert.PlainMatmul.matmul_zero_apply, broadcastTo_1b_ab_apply,
    broadcastTo_1b_ab_apply]
  rfl

/-- Column `sel o` of the double gate is the gate with column `sel o` of each parameter. -/
theorem tG_sel (W0 W1 : FVec Ideal S128x256 .bf16) (b0 b1 : FVec Ideal S1x256 .f32) (a u : FVec Ideal S256x128 .f32)
    (sel : Fin 128 → Fin 256) (q : Fin 256) (o : Fin 128) :
    tG W0 W1 b0 b1 a u (ix2 q (sel o))
      = Spec.gate (rowsT a) (rowsT u) (fun k o => W0 (ix2 k (sel o))) (fun o => b0 (ix2 (0 : Fin 1) (sel o)))
          (fun k o => W1 (ix2 k (sel o))) (fun o => b1 (ix2 (0 : Fin 1) (sel o))) q o := by
  show Ideal.logistic (tLin2 W0 W1 b0 b1 a u (ix2 q (sel o))) = _
  rw [tLin2_apply, ← Spec.sigm_eq]
  rfl

/-- The halves of a 256-wide array: columns `lo o` and `hi o`. -/
theorem tZ_apply (g : FVec Ideal S256x256 .f32) (q : Fin 256) (o : Fin 128) : tZ g (ix2 q o) = g (ix2 q (lo o)) :=
  slice2_axis1_apply 0 g slices_S256x256_o0_0_S256x128 q o (lo o) (by show o.val = 0 + o.val; omega)
theorem tR_apply (g : FVec Ideal S256x256 .f32) (q : Fin 256) (o : Fin 128) : tR g (ix2 q o) = g (ix2 q (hi o)) :=
  slice2_axis1_apply 128 g slices_S256x256_o0_128_S256x128 q o (hi o) rfl

/-- The candidate's rows. -/
theorem rows_tC (W0 W1 : FVec Ideal S128x128 .bf16) (b0 b1 : FVec Ideal S1x128 .f32) (a u r : FVec Ideal S256x128 .f32) :
    rowsT (tC W0 W1 b0 b1 a u r)
      = Spec.cand (rowsT a) (rowsT u) (rowsT r) (fun k o => W0 (ix2 k o)) (fun o => b0 (ix2 (0 : Fin 1) o))
          (fun k o => W1 (ix2 k o)) (fun o => b1 (ix2 (0 : Fin 1) o)) := by
  funext q o
  show max (tLin1 W0 W1 b0 b1 a (mulf r u) (ix2 q o)) Spec.zeroF = _
  rw [tLin1_apply]
  rfl

/-- The parameters as the tile holds them: the z and r parameters are the two halves of the 256-wide arrays. -/
def tileParams (v17 v20 : FVec Ideal S128x256 .bf16) (v22 v24 : FVec Ideal S128x128 .bf16)
    (v27 v30 : FVec Ideal S1x256 .f32) (v32 v34 : FVec Ideal S1x128 .f32) : Spec.Params where
  Wz0 := fun k o => v17 (ix2 k (lo o))
  bz0 := fun o => v27 (ix2 (0 : Fin 1) (lo o))
  Wz1 := fun k o => v20 (ix2 k (lo o))
  bz1 := fun o => v30 (ix2 (0 : Fin 1) (lo o))
  Wr0 := fun k o => v17 (ix2 k (hi o))
  br0 := fun o => v27 (ix2 (0 : Fin 1) (hi o))
  Wr1 := fun k o => v20 (ix2 k (hi o))
  br1 := fun o => v30 (ix2 (0 : Fin 1) (hi o))
  Wh0 := fun k o => v22 (ix2 k o)
  bh0 := fun o => v32 (ix2 (0 : Fin 1) o)
  Wh1 := fun k o => v24 (ix2 k o)
  bh1 := fun o => v34 (ix2 (0 : Fin 1) o)

/-- THE TILE: entry (q, o) is the gated update of the tile's 256 rows. -/
theorem tile_apply (v17 v20 : FVec Ideal S128x256 .bf16) (v22 v24 : FVec Ideal S128x128 .bf16)
    (v27 v30 : FVec Ideal S1x256 .f32) (v32 v34 : FVec Ideal S1x128 .f32) (h : FVec Ideal S2048x128 .bf16)
    (s : Vec Ideal S1x256x2048 .f32) (f : Vec Ideal S1x256x1 .f32) (u : Vec Ideal S256x128 .f32)
    (q : Fin 256) (o : Fin 128) :
    tile v17 v20 v22 v24 v27 v30 v32 v34 h s f u (ix2 q o)
      = Spec.step (tileParams v17 v20 v22 v24 v27 v30 v32 v34) (fun q j => s (ix3 (0 : Fin 1) q j))
          (fun q => f (ix3 (0 : Fin 1) q (0 : Fin 1))) (fun j o => h (ix2 j o)) (rowsT u) q o := by
  have hz : rowsT (tZ (tG v17 v20 v27 v30 (tAgg h s f) u))
      = Spec.gate (rowsT (tAgg h s f)) (rowsT u) (tileParams v17 v20 v22 v24 v27 v30 v32 v34).Wz0
          (tileParams v17 v20 v22 v24 v27 v30 v32 v34).bz0 (tileParams v17 v20 v22 v24 v27 v30 v32 v34).Wz1
          (tileParams v17 v20 v22 v24 v27 v30 v32 v34).bz1 := by
    funext q o
    show tZ _ (ix2 q o) = _
    rw [tZ_apply, tG_sel v17 v20 v27 v30 (tAgg h s f) u lo q o]
    rfl
  have hr : rowsT (tR (tG v17 v20 v27 v30 (tAgg h s f) u))
      = Spec.gate (rowsT (tAgg h s f)) (rowsT u) (tileParams v17 v20 v22 v24 v27 v30 v32 v34).Wr0
          (tileParams v17 v20 v22 v24 v27 v30 v32 v34).br0 (tileParams v17 v20 v22 v24 v27 v30 v32 v34).Wr1
          (tileParams v17 v20 v22 v24 v27 v30 v32 v34).br1 := by
    funext q o
    show tR _ (ix2 q o) = _
    rw [tR_apply, tG_sel v17 v20 v27 v30 (tAgg h s f) u hi q o]
    rfl
  show rowsT (tC v22 v24 v32 v34 (tAgg h s f) u (tR (tG v17 v20 v27 v30 (tAgg h s f) u))) q o
      * rowsT (tZ (tG v17 v20 v27 v30 (tAgg h s f) u)) q o
    + rowsT u q o * (Spec.oneF - rowsT (tZ (tG v17 v20 v27 v30 (tAgg h s f) u)) q o) = _
  rw [rows_tC, hz, hr, rows_tAgg]
  rfl

/-! ## The prologue: the encoding of all 2048 rows -/

/-- The prologue's store is relu(x·Wₑ + bₑ) of the batch's block of x: entry (n, o). -/
theorem pay7_apply (v0 : Vec Ideal S1x2048x128 .f32) (v3 : Vec Ideal S128x128 .f32) (v6 : Vec Ideal S128 .f32)
    (n : Fin 2048) (o : Fin 128) :
    k0_pay7 (F := Ideal) v0 v3 v6 (ix2 n o)
      = Spec.enc (fun n k => v0 (ix3 (0 : Fin 1) n k)) (fun k o => v3 (ix2 k o)) (fun o => v6 (ix1 o)) n o := by
  show shapeCast S2048x128 (maximumf (addf (matmul dot_S2048x128_S128x128_S2048x128_1_0_0_1_n_n none
      (truncf .bf16 (shapeCast S2048x128 v0 shapeCasts_S1x2048x128_S2048x128) bitsLt_bf16_f32)
      (truncf .bf16 v3 bitsLt_bf16_f32) (constant S2048x128 .f32 0x00000000#32))
      (broadcastTo S2048x128 (shapeCast S1x128 v6 shapeCasts_S128_S1x128 : FVec Ideal S1x128 .f32) broadcasts_S1x128_S2048x128))
      (broadcast S2048x128 (Scalar.ofBits .f32 0x00000000#32))) shapeCasts_S2048x128_S2048x128 (ix2 n o) = _
  rw [shapeCast_self]
  show max (FloatOps.matmul (DotDims.plain 2048 128 128) none
        (truncf .bf16 (shapeCast S2048x128 v0 shapeCasts_S1x2048x128_S2048x128) bitsLt_bf16_f32)
        (truncf .bf16 v3 bitsLt_bf16_f32) (constant ⟨2, ![2048, 128]⟩ .f32 0x00000000#32) (ix2 n o)
      + broadcastTo ⟨2, ![2048, 128]⟩ (shapeCast S1x128 v6 shapeCasts_S128_S1x128 : FVec Ideal S1x128 .f32) broadcasts_S1x128_S2048x128 (ix2 n o))
      Spec.zeroF = _
  rw [Cert.PlainMatmul.matmul_zero_apply, broadcastTo_1b_ab_apply, shapeCast_a_1a_apply]
  show max ((∑ k : Fin 128, shapeCast S2048x128 v0 shapeCasts_S1x2048x128_S2048x128 (ix2 n k) * v3 (ix2 k o))
      + v6 (ix1 o)) Spec.zeroF = _
  simp only [shapeCast_1ab_ab_apply v0]
  rfl

end Cert.KernelTile

end
-- ==== Proof.KernelPieces.lean ====
/-
  What the kernel's run leaves in the output block, read at an entry.

  The run stores the encoding h⁰ whole into the first scratch buffer; the first loop's eight trips each store one
  256-row tile of the first update into the second scratch buffer; the second loop's eight trips each store one
  256-row tile of the second update into the output block. A trip's tile is computed from the trip's own 256 rows of
  S, f and of the previous state and from the WHOLE previous state, read back from the scratch buffer the step
  before filled. Each buffer written tile by tile is read as one function of its index: every tile is the
  restriction of one function (the update of all 2048 rows, row offset 256·k + q), and the tiles cover the buffer.
-/
import proofs.«114687_j51642686767329_2_alg».proof.Proof.PatchedKernelIdealFrame
import proofs.«114687_j51642686767329_2_alg».proof.Proof.KernelTile
import Idealize.ShloMosaic.Lib.Pipeline.Value
import Idealize.ShloMosaic.Lib.ValueLayout
import Idealize.ShloMosaic.Lib.Pipeline.FrameBody

set_option maxRecDepth 16384

noncomputable section

namespace Cert.KernelPieces

open Cert.KernelIdeal Cert.KernelIdeal.Gen Cert.KernelIdeal.GenP Cert.KernelTile
open Idealize.ShloMosaic Idealize.ShloMosaic.ValueIdx Idealize.ShloMosaic.TcCoe Idealize.SL.Sem
open Idealize.ShloMosaic.Pipeline (Dat)

/-! ## The trips' offsets and the trips' pieces -/

/-- Both loops run eight trips, and trip k addresses rows 256·k … 256·k + 255 (decided over the eight trips). -/
theorem offs1 : ∀ k : Fin k0_t1_loop.trips, k.val < 8 ∧ k0_off1 k = ![0, 256 * k.val, 0] ∧ k0_off2 k = ![0, 256 * k.val, 0]
    ∧ k0_off3 k = ![256 * k.val, 0] := by decide +kernel
theorem offs2 : ∀ k : Fin k0_t2_loop.trips, k.val < 8 ∧ k0_off4 k = ![0, 256 * k.val, 0] ∧ k0_off5 k = ![0, 256 * k.val, 0]
    ∧ k0_off6 k = ![256 * k.val, 0] ∧ k0_off7 k = ![0, 256 * k.val, 0] := by decide +kernel
theorem trips1 : k0_t1_loop.trips = 8 := by decide +kernel
theorem trips2 : k0_t2_loop.trips = 8 := by decide +kernel

variable {F : FTy → Type} [FloatOps F]
variable (c : Dev nD) (i : grid0.Coords) (arg1 : Memref sig .tc .vmem S1x2048x128 .f32) (harg1 : arg1.IsWhole) (arg2 : Memref sig .tc .vmem S1x2048x2048 .f32) (harg2 : arg2.IsWhole) (arg3 : Memref sig .tc .vmem S1x2048x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S128x256 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x2048x128 .f32) (harg14 : arg14.IsWhole) (arg15 : Memref sig .tc .vmem S2048x128 .f32) (harg15 : arg15.IsWhole) (arg16 : Memref sig .tc .vmem S2048x128 .f32) (harg16 : arg16.IsWhole)

/-- A trip of the first loop leaves ONE piece: rows 256·k … of the second scratch buffer, holding the tile computed
    from the trip's rows of S, f and of the first scratch buffer, and the whole loaded state. -/
theorem trip1_piece (v17 : FVec F S128x256 .bf16) (v20 : FVec F S128x256 .bf16) (v22 : FVec F S128x128 .bf16)
    (v24 : FVec F S128x128 .bf16) (v27 : FVec F S1x256 .f32) (v30 : FVec F S1x256 .f32) (v32 : FVec F S1x128 .f32)
    (v34 : FVec F S1x128 .f32) (v35 : Vec F S2048x128 .f32) (X_arg2 : BufTy.Contents (Elt F) arg2.view.ty)
    (X_arg3 : BufTy.Contents (Elt F) arg3.view.ty) (X_arg15 : BufTy.Contents (Elt F) arg15.view.ty)
    (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v20 v22 v24 v27 v30 v32 v34 v35 X_arg2 X_arg3 X_arg15 k
      = [⟨Rect.unit (s := S2048x128) (k0_off3 k) S256x128.size (k0_off3_inb k),
          k0_pay2 (k0_pay5 v17 v20 v22 v24 v27 v30 v32 v34 (k0_pay1 v35)
            (View.readAt (Elt F) arg2.view (Rect.unit (s := S1x2048x2048) (k0_off1 k) S1x256x2048.size (k0_off1_inb k)).toLoadRect X_arg2)
            (View.readAt (Elt F) arg3.view (Rect.unit (s := S1x2048x1) (k0_off2 k) S1x256x1.size (k0_off2_inb k)).toLoadRect X_arg3)
            (View.readAt (Elt F) arg15.view (Rect.unit (s := S2048x128) (k0_off3 k) S256x128.size (k0_off3_inb k)).toLoadRect X_arg15))⟩] := by
  unfold tripL_k0_t1 trip_k0_t1
  rfl

/-- A trip of the second loop leaves ONE piece: rows 256·k … of the output block. -/
theorem trip2_piece (v17 : FVec F S128x256 .bf16) (v20 : FVec F S128x256 .bf16) (v22 : FVec F S128x128 .bf16)
    (v24 : FVec F S128x128 .bf16) (v27 : FVec F S1x256 .f32) (v30 : FVec F S1x256 .f32) (v32 : FVec F S1x128 .f32)
    (v34 : FVec F S1x128 .f32) (v38 : Vec F S2048x128 .f32) (X_arg2 : BufTy.Contents (Elt F) arg2.view.ty)
    (X_arg3 : BufTy.Contents (Elt F) arg3.view.ty) (X_arg16 : BufTy.Contents (Elt F) arg16.view.ty)
    (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v20 v22 v24 v27 v30 v32 v34 v38 X_arg2 X_arg3 X_arg16 k
      = [⟨Rect.unit (s := S1x2048x128) (k0_off7 k) S1x256x128.size (k0_off7_inb k),
          k0_pay4 (k0_pay6 v17 v20 v22 v24 v27 v30 v32 v34 (k0_pay3 v38)
            (View.readAt (Elt F) arg2.view (Rect.unit (s := S1x2048x2048) (k0_off4 k) S1x256x2048.size (k0_off4_inb k)).toLoadRect X_arg2)
            (View.readAt (Elt F) arg3.view (Rect.unit (s := S1x2048x1) (k0_off5 k) S1x256x1.size (k0_off5_inb k)).toLoadRect X_arg3)
            (View.readAt (Elt F) arg16.view (Rect.unit (s := S2048x128) (k0_off6 k) S256x128.size (k0_off6_inb k)).toLoadRect X_arg16))⟩] := by
  unfold tripL_k0_t2 trip_k0_t2
  rfl

/-! ## Every piece of a loop's list is a tile of one function -/

/-- Row 256·k + q of a 2048-row buffer. -/
def row (k : ℕ) (q : Fin 256) (h : k < 8) : Fin 2048 := ⟨256 * k + q.val, by have := q.isLt; omega⟩

/-- THE FIRST LOOP: if trip k's tile at (q, o) is `G` at row 256·k + q, every piece of the list after any number of
    trips is a block of `G`. -/
theorem pb1_pieces (v17 : FVec Ideal S128x256 .bf16) (v20 : FVec Ideal S128x256 .bf16) (v22 : FVec Ideal S128x128 .bf16)
    (v24 : FVec Ideal S128x128 .bf16) (v27 : FVec Ideal S1x256 .f32) (v30 : FVec Ideal S1x256 .f32)
    (v32 : FVec Ideal S1x128 .f32) (v34 : FVec Ideal S1x128 .f32) (v35 : Vec Ideal S2048x128 .f32) (X_arg2 : BufTy.Contents (Elt Ideal) arg2.view.ty)
    (X_arg3 : BufTy.Contents (Elt Ideal) arg3.view.ty) (X_arg15 : BufTy.Contents (Elt Ideal) arg15.view.ty)
    (G : S2048x128.Idx → EReal)
    (hG : ∀ (k : Fin k0_t1_loop.trips) (hk : k.val < 8) (q : Fin 256) (o : Fin 128),
      tile v17 v20 v22 v24 v27 v30 v32 v34 (k0_pay1 v35)
        (View.readAt (Elt Ideal) arg2.view (Rect.unit (s := S1x2048x2048) (k0_off1 k) S1x256x2048.size (k0_off1_inb k)).toLoadRect X_arg2)
        (View.readAt (Elt Ideal) arg3.view (Rect.unit (s := S1x2048x1) (k0_off2 k) S1x256x1.size (k0_off2_inb k)).toLoadRect X_arg3)
        (View.readAt (Elt Ideal) arg15.view (Rect.unit (s := S2048x128) (k0_off3 k) S256x128.size (k0_off3_inb k)).toLoadRect X_arg15)
        (ix2 q o) = G (ix2 (row k.val q hk) o)) :
    ∀ n, n ≤ k0_t1_loop.trips →
      ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v20 v22 v24 v27 v30 v32 v34 v35 X_arg2 X_arg3 X_arg15 n,
        ∀ x : p.1.shape.Idx, p.2 x = G (p.1.emb x) := by
  intro n
  induction n with
  | zero =>
    intro _ p hp
    rw [pb_k0_t1.eq_1] at hp
    exact absurd hp (List.not_mem_nil)
  | succ n ih =>
    intro hn p hp x
    have hlt : n < k0_t1_loop.trips := hn
    rw [show n + 1 = (⟨n, hlt⟩ : Fin k0_t1_loop.trips).val + 1 from rfl, pb_k0_t1_succ, trip1_piece] at hp
    rcases List.mem_append.mp hp with h1 | h2
    · obtain rfl := List.mem_singleton.mp h1
      obtain ⟨q, o, rfl⟩ : ∃ (q : Fin 256) (o : Fin 128), x = ix2 q o := ⟨x 0, x 1, eq_ix2 x⟩
      obtain ⟨hk8, -, -, e3⟩ := offs1 ⟨n, hlt⟩
      have e30 : k0_off3 ⟨n, hlt⟩ (0 : Fin 2) = 256 * n := congrFun e3 0
      have e31 : k0_off3 ⟨n, hlt⟩ (1 : Fin 2) = 0 := congrFun e3 1
      have hemb : (Rect.unit (s := S2048x128) (k0_off3 ⟨n, hlt⟩) S256x128.size (k0_off3_inb ⟨n, hlt⟩)).emb (ix2 q o)
          = ix2 (row n q hk8) o := by
        funext a; apply Fin.ext
        match a with
        | ⟨0, _⟩ => show k0_off3 ⟨n, hlt⟩ (0 : Fin 2) + 1 * q.val = 256 * n + q.val; omega
        | ⟨1, _⟩ => show k0_off3 ⟨n, hlt⟩ (1 : Fin 2) + 1 * o.val = o.val; omega
      show k0_pay2 (k0_pay5 v17 v20 v22 v24 v27 v30 v32 v34 (k0_pay1 v35) _ _ _) (ix2 q o) = G (_)
      rw [hemb, ← hG ⟨n, hlt⟩ hk8 q o, pay5_eq]
      unfold k0_pay2
      exact congrFun (shapeCast_self _ shapeCasts_S256x128_S256x128) (ix2 q o)
    · exact ih (Nat.le_of_lt hlt) p h2 x

/-- THE SECOND LOOP: the same for the output block [1, 2048, 128]. -/
theorem pb2_pieces (v17 : FVec Ideal S128x256 .bf16) (v20 : FVec Ideal S128x256 .bf16) (v22 : FVec Ideal S128x128 .bf16)
    (v24 : FVec Ideal S128x128 .bf16) (v27 : FVec Ideal S1x256 .f32) (v30 : FVec Ideal S1x256 .f32)
    (v32 : FVec Ideal S1x128 .f32) (v34 : FVec Ideal S1x128 .f32) (v38 : Vec Ideal S2048x128 .f32) (X_arg2 : BufTy.Contents (Elt Ideal) arg2.view.ty)
    (X_arg3 : BufTy.Contents (Elt Ideal) arg3.view.ty) (X_arg16 : BufTy.Contents (Elt Ideal) arg16.view.ty)
    (G : S1x2048x128.Idx → EReal)
    (hG : ∀ (k : Fin k0_t2_loop.trips) (hk : k.val < 8) (q : Fin 256) (o : Fin 128),
      tile v17 v20 v22 v24 v27 v30 v32 v34 (k0_pay3 v38)
        (View.readAt (Elt Ideal) arg2.view (Rect.unit (s := S1x2048x2048) (k0_off4 k) S1x256x2048.size (k0_off4_inb k)).toLoadRect X_arg2)
        (View.readAt (Elt Ideal) arg3.view (Rect.unit (s := S1x2048x1) (k0_off5 k) S1x256x1.size (k0_off5_inb k)).toLoadRect X_arg3)
        (View.readAt (Elt Ideal) arg16.view (Rect.unit (s := S2048x128) (k0_off6 k) S256x128.size (k0_off6_inb k)).toLoadRect X_arg16)
        (ix2 q o) = G (ix3 (0 : Fin 1) (row k.val q hk) o)) :
    ∀ n, n ≤ k0_t2_loop.trips →
      ∀ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v20 v22 v24 v27 v30 v32 v34 v38 X_arg2 X_arg3 X_arg16 n,
        ∀ x : p.1.shape.Idx, p.2 x = G (p.1.emb x) := by
  intro n
  induction n with
  | zero =>
    intro _ p hp
    rw [pb_k0_t2.eq_1] at hp
    exact absurd hp (List.not_mem_nil)
  | succ n ih =>
    intro hn p hp x
    have hlt : n < k0_t2_loop.trips := hn
    rw [show n + 1 = (⟨n, hlt⟩ : Fin k0_t2_loop.trips).val + 1 from rfl, pb_k0_t2_succ, trip2_piece] at hp
    rcases List.mem_append.mp hp with h1 | h2
    · obtain rfl := List.mem_singleton.mp h1
      obtain ⟨u, q, o, rfl⟩ : ∃ (u : Fin 1) (q : Fin 256) (o : Fin 128), x = ix3 u q o := ⟨x 0, x 1, x 2, eq_ix3 x⟩
      obtain ⟨hk8, -, -, -, e7⟩ := offs2 ⟨n, hlt⟩
      have e70 : k0_off7 ⟨n, hlt⟩ (0 : Fin 3) = 0 := congrFun e7 0
      have e71 : k0_off7 ⟨n, hlt⟩ (1 : Fin 3) = 256 * n := congrFun e7 1
      have e72 : k0_off7 ⟨n, hlt⟩ (2 : Fin 3) = 0 := congrFun e7 2
      have hemb : (Rect.unit (s := S1x2048x128) (k0_off7 ⟨n, hlt⟩) S1x256x128.size (k0_off7_inb ⟨n, hlt⟩)).emb (ix3 u q o)
          = ix3 (0 : Fin 1) (row n q hk8) o := by
        funext a; apply Fin.ext
        match a with
        | ⟨0, _⟩ => show k0_off7 ⟨n, hlt⟩ (0 : Fin 3) + 1 * u.val = 0; omega
        | ⟨1, _⟩ => show k0_off7 ⟨n, hlt⟩ (1 : Fin 3) + 1 * q.val = 256 * n + q.val; omega
        | ⟨2, _⟩ => show k0_off7 ⟨n, hlt⟩ (2 : Fin 3) + 1 * o.val = o.val; omega
      show k0_pay4 (k0_pay6 v17 v20 v22 v24 v27 v30 v32 v34 (k0_pay3 v38) _ _ _) (ix3 u q o) = G (_)
      rw [hemb, ← hG ⟨n, hlt⟩ hk8 q o, pay6_eq]
      unfold k0_pay4
      exact shapeCast_ab_1ab_apply _ shapeCasts_S256x128_S1x256x128 u q o
    · exact ih (Nat.le_of_lt hlt) p h2 x

/-! ## Whole-rectangle reads, and the rows a trip's rectangles address -/

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole memref holding `x`, read through its whole rectangle, reads `x`. -/
theorem whole_read {S : Shape} (mr : Memref sig .tc .vmem S .f32) (h : mr.IsWhole) (x : S.Idx → EReal)
    {off : Fin S.rank → ℕ} (hz : off = fun _ => 0) (inb : ∀ a, off a + S.size a ≤ S.size a) :
    View.readAt (Elt Ideal) mr.view (Rect.unit off S.size inb).toLoadRect (h.unread x) = x := by
  rw [View.readAt_eq_ld, h.read_unread]
  exact View.ld_unit_zero (Val := Elt Ideal) (e := .f32) hz inb x

/-- … and through any rectangle, `x` at the rectangle's indices. -/
theorem rect_read {S : Shape} (mr : Memref sig .tc .vmem S .f32) (h : mr.IsWhole) (x : S.Idx → EReal) (r : Rect S)
    (j : r.shape.Idx) : View.readAt (Elt Ideal) mr.view r.toLoadRect (h.unread x) j = x (r.idx j) := by
  rw [View.readAt_eq_ld, h.read_unread]

/-- The 256 rows from row 256·k of a [1, 2048, w] block and of a [2048, 128] buffer. -/
theorem idx_rows3 {w : ℕ} (off : Fin 3 → ℕ) (k : ℕ) (hk : k < 8) (hoff : off = ![0, 256 * k, 0])
    (inb : ∀ a, off a + (![1, 256, w] : Fin 3 → ℕ) a ≤ (⟨3, ![1, 2048, w]⟩ : Shape).size a)
    (u : Fin 1) (q : Fin 256) (j : Fin w) :
    (Rect.unit (s := ⟨3, ![1, 2048, w]⟩) off ![1, 256, w] inb).idx (ix3 u q j) = ix3 (0 : Fin 1) (row k q hk) j := by
  subst hoff
  funext a; apply Fin.ext
  match a with
  | ⟨0, _⟩ => show 0 + 1 * u.val = 0; omega
  | ⟨1, _⟩ => show 256 * k + 1 * q.val = 256 * k + q.val; omega
  | ⟨2, _⟩ => show 0 + 1 * j.val = j.val; omega
theorem idx_rows2 (off : Fin 2 → ℕ) (k : ℕ) (hk : k < 8) (hoff : off = ![256 * k, 0])
    (inb : ∀ a, off a + (![256, 128] : Fin 2 → ℕ) a ≤ (⟨2, ![2048, 128]⟩ : Shape).size a) (q : Fin 256) (o : Fin 128) :
    (Rect.unit (s := ⟨2, ![2048, 128]⟩) off ![256, 128] inb).idx (ix2 q o) = ix2 (row k q hk) o := by
  subst hoff
  funext a; apply Fin.ext
  match a with
  | ⟨0, _⟩ => show 256 * k + 1 * q.val = 256 * k + q.val; omega
  | ⟨1, _⟩ => show 0 + 1 * o.val = o.val; omega

/-! ## The run's operands, named -/

section Run
variable (x0 : Vec Ideal S1x2048x128 .f32) (x1 : Vec Ideal S1x2048x2048 .f32) (x2 : Vec Ideal S1x2048x1 .f32)
    (x3 : Vec Ideal S128x128 .f32) (x4 : Vec Ideal S128 .f32) (x5 : Vec Ideal S128x256 .f32) (x6 : Vec Ideal S256 .f32)
    (x7 : Vec Ideal S128x256 .f32) (x8 : Vec Ideal S256 .f32) (x9 : Vec Ideal S128x128 .f32) (x10 : Vec Ideal S128 .f32)
    (x11 : Vec Ideal S128x128 .f32) (x12 : Vec Ideal S128 .f32)

/-- The batch's operands as the specification takes them, read off the loaded blocks. -/
def bX : Spec.Full := fun n k => x0 (ix3 (0 : Fin 1) n k)
def bS : Fin 2048 → Fin 2048 → EReal := fun n j => x1 (ix3 (0 : Fin 1) n j)
def bF : Fin 2048 → EReal := fun n => x2 (ix3 (0 : Fin 1) n (0 : Fin 1))
def bWe : Spec.Wt := fun k o => x3 (ix2 k o)
def bBe : Spec.Bs := fun o => x4 (ix1 o)
def bP : Spec.Params := tileParams (k0_pay8 x5) (k0_pay9 x7) (k0_pay10 x9) (k0_pay11 x11) (k0_pay12 x6) (k0_pay13 x8) (k0_pay14 x10) (k0_pay15 x12)

/-- The encoding and the first update of the whole batch. -/
def h0 : Spec.Full := Spec.enc (bX x0) (bWe x3) (bBe x4)
def h1 : Spec.Full := Spec.step (bP x5 x6 x7 x8 x9 x10 x11 x12) (bS x1) (bF x2) (h0 x0 x3 x4) (h0 x0 x3 x4)

/-- What the prologue stores. -/
def H0 : FVec Ideal S2048x128 .f32 := k0_pay7 x0 x3 x4

theorem H0_apply (n : Fin 2048) (o : Fin 128) : H0 x0 x3 x4 (ix2 n o) = h0 x0 x3 x4 n o := pay7_apply x0 x3 x4 n o

end Run

/-! ## A buffer filled tile by tile reads as one function; a trip's tile from what its operands read as -/

/-- Pieces that are all blocks of ONE function `G` and cover the buffer, written over junk, read through any
    rectangle as `G` at the rectangle's indices. -/
theorem scratch_read {S : Shape} (mr : Memref sig .tc .vmem S .f32) (L : List (View.Piece (Elt Ideal) S .f32))
    (G : S.Idx → EReal) (hp : ∀ p ∈ L, ∀ x : p.1.shape.Idx, p.2 x = G (p.1.emb x))
    (hc : ∀ y, ∃ p ∈ L, y ∈ p.1.set) (B : LoadRect S) (j : B.shape.Idx) :
    View.readAt (Elt Ideal) mr.view B (mr.view.writes (Elt Ideal) mr.view.junk L) j = G (B.idx j) := by
  rw [View.readAt_writes_junk_eq_canon]
  exact View.canon_apply_of_pieces G L hp _ (hc _)

/-- Trip k's tile is rows 256·k … of the update of all rows, given that the trip's operands read as those rows of
    S, f and of the previous state `h`, and that the loaded whole state reads as `h`. -/
theorem trip_tile (v17 : FVec Ideal S128x256 .bf16) (v20 : FVec Ideal S128x256 .bf16) (v22 : FVec Ideal S128x128 .bf16)
    (v24 : FVec Ideal S128x128 .bf16) (v27 : FVec Ideal S1x256 .f32) (v30 : FVec Ideal S1x256 .f32)
    (v32 : FVec Ideal S1x128 .f32) (v34 : FVec Ideal S1x128 .f32) (hprev : FVec Ideal S2048x128 .bf16) (sk : Vec Ideal S1x256x2048 .f32)
    (fk : Vec Ideal S1x256x1 .f32) (uk : Vec Ideal S256x128 .f32) (P : Spec.Params)
    (S : Fin 2048 → Fin 2048 → EReal) (f : Fin 2048 → EReal) (h : Spec.Full) (k : ℕ) (hk : k < 8)
    (hP : tileParams v17 v20 v22 v24 v27 v30 v32 v34 = P)
    (hs : ∀ q j, sk (ix3 (0 : Fin 1) q j) = S (row k q hk) j)
    (hf : ∀ q, fk (ix3 (0 : Fin 1) q (0 : Fin 1)) = f (row k q hk))
    (hh : ∀ j o, hprev (ix2 j o) = h j o) (hu : ∀ q o, uk (ix2 q o) = h (row k q hk) o) (q : Fin 256) (o : Fin 128) :
    tile v17 v20 v22 v24 v27 v30 v32 v34 hprev sk fk uk (ix2 q o) = Spec.step P S f h h (row k q hk) o := by
  rw [tile_apply, hP]
  have e1 : (fun (q : Fin 256) (j : Fin 2048) => sk (ix3 (0 : Fin 1) q j)) = fun q => S (row k q hk) :=
    funext fun q => funext fun j => hs q j
  have e2 : (fun (q : Fin 256) => fk (ix3 (0 : Fin 1) q (0 : Fin 1))) = fun q => f (row k q hk) := funext hf
  have e3 : (fun (j : Fin 2048) (o : Fin 128) => hprev (ix2 j o)) = h := funext fun j => funext fun o => hh j o
  have e4 : rowsT uk = fun q => h (row k q hk) := funext fun q => funext fun o => hu q o
  rw [e1, e2, e3, e4]
  exact Spec.step_rows (fun q => row k q hk) P S f h h q o

/-! ## The first loop's buffer reads as the first update -/

section Out
open Idealize.ShloMosaic.Tactic
variable (x0 : Vec Ideal S1x2048x128 .f32) (x1 : Vec Ideal S1x2048x2048 .f32) (x2 : Vec Ideal S1x2048x1 .f32)
    (x3 : Vec Ideal S128x128 .f32) (x4 : Vec Ideal S128 .f32) (x5 : Vec Ideal S128x256 .f32) (x6 : Vec Ideal S256 .f32)
    (x7 : Vec Ideal S128x256 .f32) (x8 : Vec Ideal S256 .f32) (x9 : Vec Ideal S128x128 .f32) (x10 : Vec Ideal S128 .f32)
    (x11 : Vec Ideal S128x128 .f32) (x12 : Vec Ideal S128 .f32)

/-- The first scratch buffer after the prologue's one whole store reads as the encoding. -/
theorem first_read (B : LoadRect S2048x128) (j : B.shape.Idx) :
    View.readAt (Elt Ideal) arg15.view B (arg15.view.writes (Elt Ideal) arg15.view.junk
        [⟨Rect.unit (s := S2048x128) ![0, 0] ![2048, 128] inb_S2048x128_S2048x128_0_0, H0 x0 x3 x4⟩]) j = H0 x0 x3 x4 (B.idx j) := by
  rw [View.readAt_writes_junk_eq_canon, View.canon_unit_zero hz2]

/-- The first loop's pieces, with the run's operands. -/
abbrev L1 : List (View.Piece (Elt Ideal) S2048x128 .f32) :=
  pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    (k0_pay8 x5) (k0_pay9 x7) (k0_pay10 x9) (k0_pay11 x11) (k0_pay12 x6) (k0_pay13 x8) (k0_pay14 x10) (k0_pay15 x12) (H0 x0 x3 x4) (harg2.unread x1) (harg3.unread x2)
    (arg15.view.writes (Elt Ideal) arg15.view.junk
        [⟨Rect.unit (s := S2048x128) ![0, 0] ![2048, 128] inb_S2048x128_S2048x128_0_0, H0 x0 x3 x4⟩]) k0_t1_loop.trips

set_option maxHeartbeats 1000000 in
/-- Every one of them is a tile of the first update `h1` of the whole batch. -/
theorem L1_pieces : ∀ p ∈ L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12, ∀ x : p.1.shape.Idx,
    p.2 x = (fun y : S2048x128.Idx => h1 x0 x1 x2 x3 x4 x5 x6 x7 x8 x9 x10 x11 x12 (y 0) (y 1)) (p.1.emb x) := by
  refine pb1_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 x5) (k0_pay9 x7) (k0_pay10 x9) (k0_pay11 x11) (k0_pay12 x6) (k0_pay13 x8) (k0_pay14 x10) (k0_pay15 x12) (H0 x0 x3 x4) (harg2.unread x1) (harg3.unread x2) (arg15.view.writes (Elt Ideal) arg15.view.junk
        [⟨Rect.unit (s := S2048x128) ![0, 0] ![2048, 128] inb_S2048x128_S2048x128_0_0, H0 x0 x3 x4⟩])
    (fun y : S2048x128.Idx => h1 x0 x1 x2 x3 x4 x5 x6 x7 x8 x9 x10 x11 x12 (y 0) (y 1)) ?_ _ (le_refl _)
  intro k hk q o
  obtain ⟨-, e1, e2, e3⟩ := offs1 k
  show tile _ _ _ _ _ _ _ _ _ _ _ _ (ix2 q o) = h1 x0 x1 x2 x3 x4 x5 x6 x7 x8 x9 x10 x11 x12 (row k.val q hk) o
  unfold h1
  refine trip_tile (k0_pay8 x5) (k0_pay9 x7) (k0_pay10 x9) (k0_pay11 x11) (k0_pay12 x6) (k0_pay13 x8) (k0_pay14 x10) (k0_pay15 x12) _ _ _ _ (bP x5 x6 x7 x8 x9 x10 x11 x12) (bS x1) (bF x2) (h0 x0 x3 x4) k.val hk rfl
    ?_ ?_ ?_ ?_ q o
  · intro q j
    rw [rect_read arg2 harg2 x1 (Rect.unit (s := S1x2048x2048) (k0_off1 k) S1x256x2048.size (k0_off1_inb k))
      (ix3 (0 : Fin 1) q j), idx_rows3 (k0_off1 k) k.val hk e1 (k0_off1_inb k) 0 q j]
    rfl
  · intro q
    rw [rect_read arg3 harg3 x2 (Rect.unit (s := S1x2048x1) (k0_off2 k) S1x256x1.size (k0_off2_inb k))
      (ix3 (0 : Fin 1) q (0 : Fin 1)), idx_rows3 (k0_off2 k) k.val hk e2 (k0_off2_inb k) 0 q 0]
    rfl
  · intro j o
    exact H0_apply x0 x3 x4 j o
  · intro q o
    rw [first_read arg15 x0 x3 x4 (Rect.unit (s := S2048x128) (k0_off3 k) S256x128.size (k0_off3_inb k)).toLoadRect
      (ix2 q o), idx_rows2 (k0_off3 k) k.val hk e3 (k0_off3_inb k) q o]
    exact H0_apply x0 x3 x4 _ o

/-- … and together they cover the buffer: eight tiles of 256 rows. -/
theorem L1_cover : ∀ y, ∃ p ∈ L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12, y ∈ p.1.set :=
  View.cover_of_tiledL _ S256x128.size (by sl_kernel_rfl)

/-- The whole rectangle of a rank-2 buffer addresses every entry at itself. -/
theorem idx_whole2 {a b : ℕ} (inb : ∀ t, (![0, 0] : Fin 2 → ℕ) t + (![a, b] : Fin 2 → ℕ) t ≤ (⟨2, ![a, b]⟩ : Shape).size t)
    (j : Fin a) (o : Fin b) : (Rect.unit (s := ⟨2, ![a, b]⟩) ![0, 0] ![a, b] inb).idx (ix2 j o) = ix2 j o := by
  funext t; apply Fin.ext
  match t with
  | ⟨0, _⟩ => show 0 + 1 * j.val = j.val; omega
  | ⟨1, _⟩ => show 0 + 1 * o.val = o.val; omega

/-- What the second scratch buffer reads as after the first loop: the first update. -/
theorem second_read (B : LoadRect S2048x128) (j : B.shape.Idx) :
    View.readAt (Elt Ideal) arg16.view B (arg16.view.writes (Elt Ideal) arg16.view.junk (L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)) j
      = h1 x0 x1 x2 x3 x4 x5 x6 x7 x8 x9 x10 x11 x12 ((B.idx j) 0) ((B.idx j) 1) :=
  scratch_read arg16 (L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) (fun y : S2048x128.Idx => h1 x0 x1 x2 x3 x4 x5 x6 x7 x8 x9 x10 x11 x12 (y 0) (y 1))
    (L1_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) (L1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) B j

set_option maxHeartbeats 2000000 in
/-- THE OUTPUT'S PIECES: every piece the run leaves in the output block is a tile of the layer's result on the batch. -/
theorem out_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1, ∀ x : p.1.shape.Idx,
    p.2 x = (fun y : S1x2048x128.Idx => Spec.layer (bX x0) (bWe x3) (bBe x4) (bP x5 x6 x7 x8 x9 x10 x11 x12) (bS x1) (bF x2) (y 1) (y 2)) (p.1.emb x) := by
  unfold kernelRun0_A
  dsimp only
  simp only [whole_read (S := S128) _ _ _ hz1, whole_read (S := S256) _ _ _ hz1, whole_read (S := S128x256) _ _ _ hz2,
    whole_read (S := S128x128) _ _ _ hz2, whole_read (S := S1x2048x128) _ _ _ hz3,
    View.readCov_unit_zero (S := S2048x128) _ hz2]
  refine pb2_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 x5) (k0_pay9 x7) (k0_pay10 x9) (k0_pay11 x11) (k0_pay12 x6) (k0_pay13 x8) (k0_pay14 x10) (k0_pay15 x12) _ (harg2.unread x1) (harg3.unread x2) _
    (fun y : S1x2048x128.Idx => Spec.layer (bX x0) (bWe x3) (bBe x4) (bP x5 x6 x7 x8 x9 x10 x11 x12) (bS x1) (bF x2) (y 1) (y 2)) ?_ _ (le_refl _)
  intro k hk q o
  obtain ⟨-, e4, e5, e6, -⟩ := offs2 k
  show tile _ _ _ _ _ _ _ _ _ _ _ _ (ix2 q o) = Spec.layer (bX x0) (bWe x3) (bBe x4) (bP x5 x6 x7 x8 x9 x10 x11 x12) (bS x1) (bF x2) (row k.val q hk) o
  unfold Spec.layer
  refine trip_tile (k0_pay8 x5) (k0_pay9 x7) (k0_pay10 x9) (k0_pay11 x11) (k0_pay12 x6) (k0_pay13 x8) (k0_pay14 x10) (k0_pay15 x12) _ _ _ _ (bP x5 x6 x7 x8 x9 x10 x11 x12) (bS x1) (bF x2) (h1 x0 x1 x2 x3 x4 x5 x6 x7 x8 x9 x10 x11 x12) k.val hk rfl
    ?_ ?_ ?_ ?_ q o
  · intro q j
    rw [rect_read arg2 harg2 x1 (Rect.unit (s := S1x2048x2048) (k0_off4 k) S1x256x2048.size (k0_off4_inb k))
      (ix3 (0 : Fin 1) q j), idx_rows3 (k0_off4 k) k.val hk e4 (k0_off4_inb k) 0 q j]
    rfl
  · intro q
    rw [rect_read arg3 harg3 x2 (Rect.unit (s := S1x2048x1) (k0_off5 k) S1x256x1.size (k0_off5_inb k))
      (ix3 (0 : Fin 1) q (0 : Fin 1)), idx_rows3 (k0_off5 k) k.val hk e5 (k0_off5_inb k) 0 q 0]
    rfl
  · intro j o
    show View.readAt (Elt Ideal) arg16.view (Rect.unit (s := S2048x128) ![0, 0] ![2048, 128] inb_S2048x128_S2048x128_0_0).toLoadRect
      (arg16.view.writes (Elt Ideal) arg16.view.junk (L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)) (ix2 j o) = _
    rw [second_read, idx_whole2]
  · intro q o
    show View.readAt (Elt Ideal) arg16.view (Rect.unit (s := S2048x128) (k0_off6 k) S256x128.size (k0_off6_inb k)).toLoadRect
      (arg16.view.writes (Elt Ideal) arg16.view.junk (L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)) (ix2 q o) = _
    rw [second_read, idx_rows2 (k0_off6 k) k.val hk e6 (k0_off6_inb k) q o]

/-- THE OUTPUT BLOCK after the body, at row n and feature o: the layer's result on the batch staged in the blocks. -/
theorem out_apply (n : Fin 2048) (o : Fin 128) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix3 (0 : Fin 1) n o) = Spec.layer (bX x0) (bWe x3) (bBe x4) (bP x5 x6 x7 x8 x9 x10 x11 x12) (bS x1) (bF x2) n o := by
  unfold out0_A_13
  rw [View.read_writes_eq_canon VO0_13 VO0_13.junk _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  exact View.canon_apply_of_pieces (fun y : S1x2048x128.Idx => Spec.layer (bX x0) (bWe x3) (bBe x4) (bP x5 x6 x7 x8 x9 x10 x11 x12) (bS x1) (bF x2) (y 1) (y 2)) _
    (out_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) (ix3 (0 : Fin 1) n o)
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix3 (0 : Fin 1) n o))

end Out

end Cert.KernelPieces

end
-- ==== Proof.KernelBlocks.lean ====
/-
  The windows' blocks at a grid point, read at an entry.

  The grid has 16 points, one per batch. At point t the windows of x, S, f and the output hold batch t (their block
  index is (t, 0, 0) and a block is a whole batch), and the parameter windows hold their whole arrays at every point.
  The four fused parameter arrays are built before the call by joining two arguments side by side: the left half of a
  fused array is its first argument and the right half its second.
-/
import proofs.«114687_j51642686767329_2_alg».proof.Proof.Gen.KernelIdeal.Frame.Runs
import proofs.«114687_j51642686767329_2_alg».proof.Proof.KernelTile
import Idealize.ShloMosaic.Lib.Pipeline.Value
import Idealize.ShloMosaic.Lib.StableHlo.Run

set_option maxRecDepth 16384

noncomputable section

namespace Cert.KernelBlocks

open Cert.KernelIdeal Cert.KernelIdeal.Gen Cert.KernelTile
open Idealize.ShloMosaic Idealize.ShloMosaic.ValueIdx Idealize.ShloMosaic.TcCoe Idealize.SL.Sem

variable (m : (ℓ : Loc nD τ sig) → Buf (Elt Ideal) ℓ)

/-- The batch a grid point works on. -/
def batch (t : Fin cfg0.N) : Fin 16 := ⟨t.val, t.isLt⟩

/-- The printed index maps, decided over the 16 points: the batch windows sit at block (t, 0, 0), the parameter
    windows at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_13.index t (0 : Fin 3) = t.val ∧ win0_13.index t (1 : Fin 3) = 0 ∧ win0_13.index t (2 : Fin 3) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0 :=
  (by decide +kernel : ∀ t : Fin grid0.N, _)

/-- The block of x at point t is batch t of x. -/
theorem blk_x (c : Dev nD) (t : Fin cfg0.N) (n : Fin 2048) (k : Fin 128) :
    iblk m c 0 t (ix3 (0 : Fin 1) n k) = m ((c : Thread nD τ).loc main_arg0) (ix3 (batch t) n k) := by
  show V m c main_arg0 (((cfg0.win 0).blk t).view.emb (ix3 (0 : Fin 1) n k)) = _
  rw [V_main_arg0]
  obtain ⟨⟨e0, e1, e2⟩, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 128 + 1 * k.val = k.val; omega

/-- The block of the encoding weight is the whole weight. -/
theorem blk_We (c : Dev nD) (t : Fin cfg0.N) (k o : Fin 128) :
    iblk m c 3 t (ix2 k o) = m ((c : Thread nD τ).loc main_arg4) (ix2 k o) := by
  show V m c main_arg4 (((cfg0.win 3).blk t).view.emb (ix2 k o)) = _
  rw [V_main_arg4]
  obtain ⟨-, -, -, -, ⟨e0, e1⟩, -⟩ := idx_facts t
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * o.val = o.val; omega

/-- The first fused weight array is the z-weight and the r-weight side by side. -/
theorem V_fused0 (c : Dev nD) :
    (V m c main_v0 : S128x256.Idx → EReal)
      = concatenate S128x256 1 [⟨S128x128, m ((c : Thread nD τ).loc main_arg6)⟩,
          ⟨S128x128, m ((c : Thread nD τ).loc main_arg10)⟩] concatenates_S128x128_S128x128_S128x256_d1 := by
  dsimp only [Gen.V, Gen.hostOps0]
  after_results

/-- The block of S at point t is batch t of S. -/
theorem blk_S (c : Dev nD) (t : Fin cfg0.N) (n j : Fin 2048) :
    iblk m c 1 t (ix3 (0 : Fin 1) n j) = m ((c : Thread nD τ).loc main_arg1) (ix3 (batch t) n j) := by
  show V m c main_arg1 (((cfg0.win 1).blk t).view.emb (ix3 (0 : Fin 1) n j)) = _
  rw [V_main_arg1]
  obtain ⟨-, ⟨e0, e1, e2⟩, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 2048 + 1 * j.val = j.val; omega

/-- The block of f at point t is batch t of f. -/
theorem blk_f (c : Dev nD) (t : Fin cfg0.N) (n : Fin 2048) :
    iblk m c 2 t (ix3 (0 : Fin 1) n (0 : Fin 1)) = m ((c : Thread nD τ).loc main_arg2) (ix3 (batch t) n (0 : Fin 1)) := by
  show V m c main_arg2 (((cfg0.win 2).blk t).view.emb (ix3 (0 : Fin 1) n (0 : Fin 1))) = _
  rw [V_main_arg2]
  obtain ⟨-, -, ⟨e0, e1, e2⟩, -⟩ := idx_facts t
  refine congrArg _ (funext fun a => Fin.ext ?_)
  match a with
  | ⟨0, _⟩ => show win0_2.index t (0 : Fin 3) * 1 + 1 * 0 = t.val; omega
  | ⟨1, _⟩ => show win0_2.index t (1 : Fin 3) * 2048 + 1 * n.val = n.val; omega
  | ⟨2, _⟩ => show win0_2.index t (2 : Fin 3) * 1 + 1 * 0 = 0; omega

/-- The block of the encoding bias is the whole bias. -/
theorem blk_be (c : Dev nD) (t : Fin cfg0.N) (o : Fin 128) :
    iblk m c 4 t (ix1 o) = m ((c : Thread nD τ).loc main_arg5) (ix1 o) := by
  show V m c main_arg5 (((cfg0.win 4).blk t).view.emb (ix1 o)) = _
  rw [V_main_arg5]
  obtain ⟨-, -, -, -, -, e0, -⟩ := idx_facts t
  refine congrArg _ (funext fun a => Fin.ext ?_)
  match a with
  | ⟨0, _⟩ => show win0_4.index t (0 : Fin 1) * 128 + 1 * o.val = o.val; omega

/-- The blocks of the candidate's weights and biases are the whole arrays. -/
theorem blk_Wh0 (c : Dev nD) (t : Fin cfg0.N) (k o : Fin 128) :
    iblk m c 9 t (ix2 k o) = m ((c : Thread nD τ).loc main_arg14) (ix2 k o) := by
  show V m c main_arg14 (((cfg0.win 9).blk t).view.emb (ix2 k o)) = _
  rw [V_main_arg14]
  obtain ⟨-, -, -, -, -, -, -, -, -, -, ⟨e0, e1⟩, -⟩ := idx_facts t
  refine congrArg _ (funext fun a => Fin.ext ?_)
  match a with
  | ⟨0, _⟩ => show win0_9.index t (0 : Fin 2) * 128 + 1 * k.val = k.val; omega
  | ⟨1, _⟩ => show win0_9.index t (1 : Fin 2) * 128 + 1 * o.val = o.val; omega
theorem blk_bh0 (c : Dev nD) (t : Fin cfg0.N) (o : Fin 128) :
    iblk m c 10 t (ix1 o) = m ((c : Thread nD τ).loc main_arg15) (ix1 o) := by
  show V m c main_arg15 (((cfg0.win 10).blk t).view.emb (ix1 o)) = _
  rw [V_main_arg15]
  obtain ⟨-, -, -, -, -, -, -, -, -, -, -, e0, -⟩ := idx_facts t
  refine congrArg _ (funext fun a => Fin.ext ?_)
  match a with
  | ⟨0, _⟩ => show win0_10.index t (0 : Fin 1) * 128 + 1 * o.val = o.val; omega
theorem blk_Wh1 (c : Dev nD) (t : Fin cfg0.N) (k o : Fin 128) :
    iblk m c 11 t (ix2 k o) = m ((c : Thread nD τ).loc main_arg16) (ix2 k o) := by
  show V m c main_arg16 (((cfg0.win 11).blk t).view.emb (ix2 k o)) = _
  rw [V_main_arg16]
  obtain ⟨-, -, -, -, -, -, -, -, -, -, -, -, ⟨e0, e1⟩, -⟩ := idx_facts t
  refine congrArg _ (funext fun a => Fin.ext ?_)
  match a with
  | ⟨0, _⟩ => show win0_11.index t (0 : Fin 2) * 128 + 1 * k.val = k.val; omega
  | ⟨1, _⟩ => show win0_11.index t (1 : Fin 2) * 128 + 1 * o.val = o.val; omega
theorem blk_bh1 (c : Dev nD) (t : Fin cfg0.N) (o : Fin 128) :
    iblk m c 12 t (ix1 o) = m ((c : Thread nD τ).loc main_arg17) (ix1 o) := by
  show V m c main_arg17 (((cfg0.win 12).blk t).view.emb (ix1 o)) = _
  rw [V_main_arg17]
  obtain ⟨-, -, -, -, -, -, -, -, -, -, -, -, -, e0⟩ := idx_facts t
  refine congrArg _ (funext fun a => Fin.ext ?_)
  match a with
  | ⟨0, _⟩ => show win0_12.index t (0 : Fin 1) * 128 + 1 * o.val = o.val; omega

/-! ## The fused arrays -/

theorem V_fused1 (c : Dev nD) :
    (V m c main_v1 : S128x256.Idx → EReal)
      = concatenate S128x256 1 [⟨S128x128, m ((c : Thread nD τ).loc main_arg8)⟩,
          ⟨S128x128, m ((c : Thread nD τ).loc main_arg12)⟩] concatenates_S128x128_S128x128_S128x256_d1 := by
  dsimp only [Gen.V, Gen.hostOps0]
  after_results
theorem V_fused2 (c : Dev nD) :
    (V m c main_v2 : S256.Idx → EReal)
      = concatenate S256 0 [⟨S128, m ((c : Thread nD τ).loc main_arg7)⟩,
          ⟨S128, m ((c : Thread nD τ).loc main_arg11)⟩] concatenates_S128_S128_S256_d0 := by
  dsimp only [Gen.V, Gen.hostOps0]
  after_results
theorem V_fused3 (c : Dev nD) :
    (V m c main_v3 : S256.Idx → EReal)
      = concatenate S256 0 [⟨S128, m ((c : Thread nD τ).loc main_arg9)⟩,
          ⟨S128, m ((c : Thread nD τ).loc main_arg13)⟩] concatenates_S128_S128_S256_d0 := by
  dsimp only [Gen.V, Gen.hostOps0]
  after_results

/-- Two 128 × 128 weights side by side: column `lo o` is the first's column o, column `hi o` the second's. -/
theorem fusedW_lo (A B : S128x128.Idx → EReal) (k o : Fin 128) :
    concatenate S128x256 1 [⟨S128x128, A⟩, ⟨S128x128, B⟩] concatenates_S128x128_S128x128_S128x256_d1 (ix2 k (lo o))
      = A (ix2 k o) :=
  concatenate_pair_apply_left 1 A B _ (ix2 k (lo o)) rfl (ix2 k o) (fun b => by
    match b with
    | ⟨0, _⟩ => rfl
    | ⟨1, _⟩ => rfl)
theorem fusedW_hi (A B : S128x128.Idx → EReal) (k o : Fin 128) :
    concatenate S128x256 1 [⟨S128x128, A⟩, ⟨S128x128, B⟩] concatenates_S128x128_S128x128_S128x256_d1 (ix2 k (hi o))
      = B (ix2 k o) :=
  concatenate_pair_apply_right 1 A B _ (ix2 k (hi o)) rfl rfl (ix2 k o) (fun b hb => by
    match b with
    | ⟨0, _⟩ => rfl
    | ⟨1, _⟩ => exact absurd rfl hb) (by show o.val + 128 = 128 + o.val; omega)
/-- Two biases of 128 joined: entry `lo o` is the first's entry o, entry `hi o` the second's. -/
theorem fusedB_lo (A B : S128.Idx → EReal) (o : Fin 128) :
    concatenate S256 0 [⟨S128, A⟩, ⟨S128, B⟩] concatenates_S128_S128_S256_d0 (ix1 (lo o)) = A (ix1 o) :=
  concatenate_pair_apply_left 0 A B _ (ix1 (lo o)) rfl (ix1 o) (fun b => by
    match b with
    | ⟨0, _⟩ => rfl)
theorem fusedB_hi (A B : S128.Idx → EReal) (o : Fin 128) :
    concatenate S256 0 [⟨S128, A⟩, ⟨S128, B⟩] concatenates_S128_S128_S256_d0 (ix1 (hi o)) = B (ix1 o) :=
  concatenate_pair_apply_right 0 A B _ (ix1 (hi o)) rfl rfl (ix1 o) (fun b hb => by
    match b with
    | ⟨0, _⟩ => exact absurd rfl hb) (by show o.val + 128 = 128 + o.val; omega)

/-- The blocks of the fused arrays are the whole fused arrays. -/
theorem blk_W0 (c : Dev nD) (t : Fin cfg0.N) (k : Fin 128) (q : Fin 256) :
    iblk m c 5 t (ix2 k q) = V m c main_v0 (ix2 k q) := by
  show V m c main_v0 (((cfg0.win 5).blk t).view.emb (ix2 k q)) = _
  obtain ⟨-, -, -, -, -, -, ⟨e0, e1⟩, -⟩ := idx_facts t
  refine congrArg _ (funext fun a => Fin.ext ?_)
  match a with
  | ⟨0, _⟩ => show win0_5.index t (0 : Fin 2) * 128 + 1 * k.val = k.val; omega
  | ⟨1, _⟩ => show win0_5.index t (1 : Fin 2) * 256 + 1 * q.val = q.val; omega
theorem blk_b0 (c : Dev nD) (t : Fin cfg0.N) (q : Fin 256) :
    iblk m c 6 t (ix1 q) = V m c main_v2 (ix1 q) := by
  show V m c main_v2 (((cfg0.win 6).blk t).view.emb (ix1 q)) = _
  obtain ⟨-, -, -, -, -, -, -, e0, -⟩ := idx_facts t
  refine congrArg _ (funext fun a => Fin.ext ?_)
  match a with
  | ⟨0, _⟩ => show win0_6.index t (0 : Fin 1) * 256 + 1 * q.val = q.val; omega
theorem blk_W1 (c : Dev nD) (t : Fin cfg0.N) (k : Fin 128) (q : Fin 256) :
    iblk m c 7 t (ix2 k q) = V m c main_v1 (ix2 k q) := by
  show V m c main_v1 (((cfg0.win 7).blk t).view.emb (ix2 k q)) = _
  obtain ⟨-, -, -, -, -, -, -, -, ⟨e0, e1⟩, -⟩ := idx_facts t
  refine congrArg _ (funext fun a => Fin.ext ?_)
  match a with
  | ⟨0, _⟩ => show win0_7.index t (0 : Fin 2) * 128 + 1 * k.val = k.val; omega
  | ⟨1, _⟩ => show win0_7.index t (1 : Fin 2) * 256 + 1 * q.val = q.val; omega
theorem blk_b1 (c : Dev nD) (t : Fin cfg0.N) (q : Fin 256) :
    iblk m c 8 t (ix1 q) = V m c main_v3 (ix1 q) := by
  show V m c main_v3 (((cfg0.win 8).blk t).view.emb (ix1 q)) = _
  obtain ⟨-, -, -, -, -, -, -, -, -, e0, -⟩ := idx_facts t
  refine congrArg _ (funext fun a => Fin.ext ?_)
  match a with
  | ⟨0, _⟩ => show win0_8.index t (0 : Fin 1) * 256 + 1 * q.val = q.val; omega

end Cert.KernelBlocks

end
-- ==== Proof.KernelValue.lean ====
/-
  From the blocks to the whole result array.

  At grid point t the kernel writes back the layer's result on batch t (the run's tiles read as one function, with the
  staged blocks read as batch t of x, S, f and as the parameters; the fused gate parameters split back into the z and r
  parameters). The sixteen blocks of the output window are the sixteen batches, so they cover the result array, and the
  array after the run is `Spec.G` of the argument arrays.
-/
import proofs.«114687_j51642686767329_2_alg».proof.Proof.PatchedKernelIdealValue
import proofs.«114687_j51642686767329_2_alg».proof.Proof.KernelPieces
import proofs.«114687_j51642686767329_2_alg».proof.Proof.KernelBlocks

set_option maxRecDepth 16384

noncomputable section

namespace Cert.KernelValue

open Cert.KernelIdeal Cert.KernelIdeal.Gen Cert.KernelIdeal.GenP Cert.KernelIdeal.ValueP
open Cert.KernelTile Cert.KernelBlocks Cert.KernelPieces
open Idealize.ShloMosaic Idealize.ShloMosaic.ValueIdx Idealize.ShloMosaic.TcCoe Idealize.SL.Sem
open Idealize.ShloMosaic.Pipeline (Dat)

/-! ## The staged parameters read at an entry -/

theorem pay8_apply (x : Vec Ideal S128x256 .f32) (k : Fin 128) (q : Fin 256) :
    k0_pay8 (F := Ideal) x (ix2 k q) = x (ix2 k q) := by
  unfold k0_pay8
  exact congrFun (shapeCast_self _ shapeCasts_S128x256_S128x256) (ix2 k q)
theorem pay9_apply (x : Vec Ideal S128x256 .f32) (k : Fin 128) (q : Fin 256) :
    k0_pay9 (F := Ideal) x (ix2 k q) = x (ix2 k q) := by
  unfold k0_pay9
  exact congrFun (shapeCast_self _ shapeCasts_S128x256_S128x256) (ix2 k q)
theorem pay12_apply (x : Vec Ideal S256 .f32) (q : Fin 256) :
    k0_pay12 (F := Ideal) x (ix2 (0 : Fin 1) q) = x (ix1 q) := by
  unfold k0_pay12
  exact (shapeCast_a_1a_apply _ shapeCasts_S256_S1x256 0 q).trans
    (congrFun (shapeCast_self _ shapeCasts_S256_S256) (ix1 q))
theorem pay13_apply (x : Vec Ideal S256 .f32) (q : Fin 256) :
    k0_pay13 (F := Ideal) x (ix2 (0 : Fin 1) q) = x (ix1 q) := by
  unfold k0_pay13
  exact (shapeCast_a_1a_apply _ shapeCasts_S256_S1x256 0 q).trans
    (congrFun (shapeCast_self _ shapeCasts_S256_S256) (ix1 q))
theorem pay14_apply (x : Vec Ideal S128 .f32) (o : Fin 128) :
    k0_pay14 (F := Ideal) x (ix2 (0 : Fin 1) o) = x (ix1 o) := by
  unfold k0_pay14
  exact shapeCast_a_1a_apply _ shapeCasts_S128_S1x128 0 o
theorem pay15_apply (x : Vec Ideal S128 .f32) (o : Fin 128) :
    k0_pay15 (F := Ideal) x (ix2 (0 : Fin 1) o) = x (ix1 o) := by
  unfold k0_pay15
  exact shapeCast_a_1a_apply _ shapeCasts_S128_S1x128 0 o

variable (m : (ℓ : Loc nD τ sig) → Buf (Elt Ideal) ℓ) (ρ : Dev nD → PrngReg)

/-- The result array the kernel should end with: `Spec.G` of the argument arrays. -/
def Gm (c : Dev nD) : S16x2048x128.Idx → EReal :=
  Spec.G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The gate and candidate parameters the kernel holds at point t are the arguments' (the fused arrays split back). -/
theorem params_eq (c : Dev nD) (t : Fin cfg0.N) :
    bP (iblk m c 5 t) (iblk m c 6 t) (iblk m c 7 t) (iblk m c 8 t) (iblk m c 9 t) (iblk m c 10 t) (iblk m c 11 t)
        (iblk m c 12 t)
      = ⟨Spec.wOf (m ((c : Thread nD τ).loc main_arg6)), Spec.bOf (m ((c : Thread nD τ).loc main_arg7)), Spec.wOf (m ((c : Thread nD τ).loc main_arg8)), Spec.bOf (m ((c : Thread nD τ).loc main_arg9)),
          Spec.wOf (m ((c : Thread nD τ).loc main_arg10)), Spec.bOf (m ((c : Thread nD τ).loc main_arg11)), Spec.wOf (m ((c : Thread nD τ).loc main_arg12)), Spec.bOf (m ((c : Thread nD τ).loc main_arg13)),
          Spec.wOf (m ((c : Thread nD τ).loc main_arg14)), Spec.bOf (m ((c : Thread nD τ).loc main_arg15)), Spec.wOf (m ((c : Thread nD τ).loc main_arg16)), Spec.bOf (m ((c : Thread nD τ).loc main_arg17))⟩ := by
  unfold bP tileParams
  congr 1
  · funext k o
    show k0_pay8 (F := Ideal) (iblk m c 5 t) (ix2 k (lo o)) = _
    rw [pay8_apply, blk_W0, V_fused0, fusedW_lo]; rfl
  · funext o
    show k0_pay12 (F := Ideal) (iblk m c 6 t) (ix2 (0 : Fin 1) (lo o)) = _
    rw [pay12_apply, blk_b0, V_fused2, fusedB_lo]; rfl
  · funext k o
    show k0_pay9 (F := Ideal) (iblk m c 7 t) (ix2 k (lo o)) = _
    rw [pay9_apply, blk_W1, V_fused1, fusedW_lo]; rfl
  · funext o
    show k0_pay13 (F := Ideal) (iblk m c 8 t) (ix2 (0 : Fin 1) (lo o)) = _
    rw [pay13_apply, blk_b1, V_fused3, fusedB_lo]; rfl
  · funext k o
    show k0_pay8 (F := Ideal) (iblk m c 5 t) (ix2 k (hi o)) = _
    rw [pay8_apply, blk_W0, V_fused0, fusedW_hi]; rfl
  · funext o
    show k0_pay12 (F := Ideal) (iblk m c 6 t) (ix2 (0 : Fin 1) (hi o)) = _
    rw [pay12_apply, blk_b0, V_fused2, fusedB_hi]; rfl
  · funext k o
    show k0_pay9 (F := Ideal) (iblk m c 7 t) (ix2 k (hi o)) = _
    rw [pay9_apply, blk_W1, V_fused1, fusedW_hi]; rfl
  · funext o
    show k0_pay13 (F := Ideal) (iblk m c 8 t) (ix2 (0 : Fin 1) (hi o)) = _
    rw [pay13_apply, blk_b1, V_fused3, fusedB_hi]; rfl
  · funext k o
    show iblk m c 9 t (ix2 k o) = _
    rw [blk_Wh0]; rfl
  · funext o
    show k0_pay14 (F := Ideal) (iblk m c 10 t) (ix2 (0 : Fin 1) o) = _
    rw [pay14_apply, blk_bh0]; rfl
  · funext k o
    show iblk m c 11 t (ix2 k o) = _
    rw [blk_Wh1]; rfl
  · funext o
    show k0_pay15 (F := Ideal) (iblk m c 12 t) (ix2 (0 : Fin 1) o) = _
    rw [pay15_apply, blk_bh1]; rfl

/-! ## What a point writes back, the cover, and the array after the run -/

/-- The output window's block at point t sits at batch t. -/
theorem emb_out (t : Fin cfg0.N) (n : Fin 2048) (o : Fin 128) :
    ((cfg0.win 13).blk t).view.emb (ix3 (0 : Fin 1) n o) = ix3 (batch t) n o := by
  obtain ⟨-, -, -, ⟨e0, e1, e2⟩, -⟩ := idx_facts t
  funext a; apply Fin.ext
  match a with
  | ⟨0, _⟩ => show win0_13.index t (0 : Fin 3) * 1 + 1 * 0 = t.val; omega
  | ⟨1, _⟩ => show win0_13.index t (1 : Fin 3) * 2048 + 1 * n.val = n.val; omega
  | ⟨2, _⟩ => show win0_13.index t (2 : Fin 3) * 128 + 1 * o.val = o.val; omega

set_option maxHeartbeats 1000000 in
/-- WHAT POINT t WRITES BACK is block t of `Gm`: the layer's result on batch t. -/
theorem flushed_eq (c : Dev nD) (t : Fin cfg0.N) :
    (dats m 0 c).flushed 13 t = ((cfg0.win 13).blk t).view.read (Elt Ideal) (Gm m c) := by
  rw [flushed13_A]
  funext j
  obtain ⟨u, n, o, rfl⟩ : ∃ (u : Fin 1) (n : Fin 2048) (o : Fin 128), j = ix3 u n o := ⟨j 0, j 1, j 2, eq_ix3 j⟩
  obtain rfl : u = 0 := Subsingleton.elim _ _
  show out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) n o)
    = Gm m c (((cfg0.win 13).blk t).view.emb (ix3 (0 : Fin 1) n o))
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) n o).trans ?_
  rw [emb_out, params_eq]
  have hx : bX (iblk m c 0 t) = Spec.rowsOf (m ((c : Thread nD τ).loc main_arg0)) (batch t) :=
    funext fun n => funext fun k => blk_x m c t n k
  have hs : bS (iblk m c 1 t) = Spec.adjOf (m ((c : Thread nD τ).loc main_arg1)) (batch t) :=
    funext fun n => funext fun j => blk_S m c t n j
  have hf : bF (iblk m c 2 t) = Spec.colOf (m ((c : Thread nD τ).loc main_arg2)) (batch t) := funext fun n => blk_f m c t n
  have hw : bWe (iblk m c 3 t) = Spec.wOf (m ((c : Thread nD τ).loc main_arg4)) := funext fun k => funext fun o => blk_We m c t k o
  have hb : bBe (iblk m c 4 t) = Spec.bOf (m ((c : Thread nD τ).loc main_arg5)) := funext fun o => blk_be m c t o
  rw [hx, hs, hf, hw, hb]
  rfl

/-- An index of the result array is in point t's block iff each coordinate is in the block's range on its axis. -/
theorem mem_blk (t : Fin cfg0.N) (i : S16x2048x128.Idx) :
    i ∈ ((cfg0.win 13).blk t).view.set ↔ ∀ a : Fin 3, win0_13.index t a * S1x2048x128.size a ≤ (i a).val
      ∧ (i a).val < win0_13.index t a * S1x2048x128.size a + S1x2048x128.size a := by
  show i ∈ ((View.whole main_v4).slice (win0_13.rect t)).set ↔ _
  rw [View.set_slice_whole, Rect.mem_set_unit]
  exact Iff.rfl

/-- The sixteen blocks cover the result array: entry (b, n, o) is in the block of point b. -/
theorem cover (i : S16x2048x128.Idx) :
    ∃ t : Fin cfg0.N, (cfg0.win 13).flush t = true ∧ i ∈ ((cfg0.win 13).blk t).view.set := by
  have h0 : (i 0).val < 16 := (i 0).isLt
  have h1 : (i 1).val < 2048 := (i 1).isLt
  have h2 : (i 2).val < 128 := (i 2).isLt
  refine ⟨⟨(i 0).val, h0⟩, flush0_13 _, ?_⟩
  rw [mem_blk]
  obtain ⟨-, -, -, ⟨e0, e1, e2⟩, -⟩ := idx_facts ⟨(i 0).val, h0⟩
  have e0' : win0_13.index ⟨(i 0).val, h0⟩ (0 : Fin 3) = (i 0).val := e0
  intro a
  match a with
  | ⟨0, _⟩ =>
    show win0_13.index ⟨(i 0).val, h0⟩ (0 : Fin 3) * 1 ≤ (i 0).val
      ∧ (i 0).val < win0_13.index ⟨(i 0).val, h0⟩ (0 : Fin 3) * 1 + 1
    omega
  | ⟨1, _⟩ =>
    show win0_13.index ⟨(i 0).val, h0⟩ (1 : Fin 3) * 2048 ≤ (i 1).val
      ∧ (i 1).val < win0_13.index ⟨(i 0).val, h0⟩ (1 : Fin 3) * 2048 + 2048
    omega
  | ⟨2, _⟩ =>
    show win0_13.index ⟨(i 0).val, h0⟩ (2 : Fin 3) * 128 ≤ (i 2).val
      ∧ (i 2).val < win0_13.index ⟨(i 0).val, h0⟩ (2 : Fin 3) * 128 + 128
    omega

/-- THE RESULT ARRAY after the run is `Gm`. -/
theorem final (c : Dev nD) : (dats m 0 c).arrAt 13 cfg0.N = Gm m c :=
  (dats m 0 c).arrAt_eq_of_cover 13 (Gm m c) (fun t _ => flushed_eq m c t) cover

end Cert.KernelValue

end
-- ==== Proof.lean ====
/-
  The certificate: the gated graph layer computed by the fused kernel against the plain reference.

  Both programs compute, per batch, h⁰ = relu(x·Wₑ + bₑ) followed by two gated updates
      a = (S·h)∘(1 + f),  z = σ(((a·Wz₀ + bz₀) + h·Wz₁) + bz₁),  r = σ(((a·Wr₀ + br₀) + h·Wr₁) + br₁),
      c = relu(((a·Wh₀ + bh₀) + (r∘h)·Wh₁) + bh₁),  h' = c∘z + h∘(1 − z),
  with the same parenthesisation, so on the extended reals no law of arithmetic separates them. What differs is the
  arrangement: the kernel works one batch per grid point, keeps the state in two scratch buffers, computes each update
  in eight tiles of 256 rows, fuses the z and r parameters side by side (joined before the call, sliced apart after
  the logistic), casts operands to a 16-bit format (the identity here) and uses a one-operation logistic where the
  reference spells 1 / (1 + e^(−x)). `Spec.G` states the common function; the reference's run is `Spec.G` of its
  arguments (RefBlocks), the kernel's result array after its run is `Spec.G` of its arguments (KernelTile: a tile;
  KernelPieces: the buffers filled tile by tile; KernelBlocks: the staged blocks; KernelValue: blocks to the array).
  The kernel's idealization rewrote no operation, so it is the kernel's own text read on the extended reals.
-/
import proofs.«114687_j51642686767329_2_alg».proof.Defs
import proofs.«114687_j51642686767329_2_alg».proof.Proof.Gen.Kernel
import proofs.«114687_j51642686767329_2_alg».proof.Proof.Gen.KernelIdeal
import proofs.«114687_j51642686767329_2_alg».proof.Proof.Gen.ReferenceIdeal
import proofs.«114687_j51642686767329_2_alg».proof.Proof.Gen.Pre_finite_inputs
import proofs.«114687_j51642686767329_2_alg».proof.Proof.PatchedKernelFrame
import proofs.«114687_j51642686767329_2_alg».proof.Proof.PatchedKernelIdealFrame
import proofs.«114687_j51642686767329_2_alg».proof.Proof.PatchedKernelIdealValue
import proofs.«114687_j51642686767329_2_alg».proof.Proof.Gen.ReferenceIdeal.Run
import proofs.«114687_j51642686767329_2_alg».proof.Proof.Gen.ReferenceIdeal.Read
import proofs.«114687_j51642686767329_2_alg».proof.Proof.Spec
import proofs.«114687_j51642686767329_2_alg».proof.Proof.RefBlocks
import proofs.«114687_j51642686767329_2_alg».proof.Proof.KernelValue
import Idealize.ShloMosaic.Adequacy
import Idealize.ShloMosaic.Init

noncomputable section

namespace Cert.Proof

open Idealize.ShloMosaic Idealize.SL.Sem

/-- The three frames: the two kernels' are the frame certificates over the repaired whole-body runs, the reference's
    is its run with the result dropped. -/
theorem frame_k : Cert.frame_Kernel :=
  fun m ρ _ => Cert.Kernel.GenP.frame m ρ
theorem frame_ki : Cert.frame_KernelIdeal :=
  fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `Spec.G` of the (agreeing) argument arrays. -/
theorem algebraic : Cert.algebraic_KernelIdeal_ReferenceIdeal := by
  intro m ρ m' ρ' _ hagree
  refine ⟨fun c => Cert.KernelValue.Gm m c, ?_, ?_⟩
  · exact (θ_run Cert.KernelIdeal.defs _ _).mono
      (fun r h c => ⟨(h c).1.trans (Cert.KernelValue.final m c), (h c).2⟩)
      (Cert.KernelIdeal.ValueP.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v106_eq, Cert.RefSide.result_eq,
      (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
